-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v38)) (v1 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_v43) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_v57) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x1 : Shape := ⟨2, ![131072, 1]⟩
abbrev S2097152 : Shape := ⟨1, ![2097152]⟩
abbrev S1x128 : Shape := ⟨2, ![1, 128]⟩
abbrev S128 : Shape := ⟨1, ![128]⟩
abbrev S128x1 : Shape := ⟨2, ![128, 1]⟩
abbrev S1 : Shape := ⟨1, ![1]⟩
abbrev S4096x2048 : Shape := ⟨2, ![4096, 2048]⟩
abbrev S2048 : Shape := ⟨1, ![2048]⟩
abbrev S_ : Shape := ⟨0, ![]⟩

class Facts : Prop where
  bcast_S_S131072x1 : S_.BroadcastsInDim S131072x1 (![] : Fin 0 → Fin S131072x1.rank)
  reducesTo_S131072x1_S_d0_1 : S131072x1.ReducesTo [0, 1] S_
  h_S_ : 0 < S_.numel
  bcast_S_S1x128 : S_.BroadcastsInDim S1x128 (![] : Fin 0 → Fin S1x128.rank)
  reducesTo_S1x128_S_d0_1 : S1x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S4096x2048 : S_.BroadcastsInDim S4096x2048 (![] : Fin 0 → Fin S4096x2048.rank)
  reducesTo_S4096x2048_S_d0_1 : S4096x2048.ReducesTo [0, 1] S_
  bcast_S_S2048 : S_.BroadcastsInDim S2048 (![] : Fin 0 → Fin S2048.rank)
  reducesTo_S2048_S_d0 : S2048.ReducesTo [0] S_

variable [Facts]

def fn_part2 {F : FTy → Type} [FloatOps F] (main_arg9 : FVec F S4096x2048 .f32) (main_arg10 : FVec F S2048 .f32) (main_v33 : IVec S_ 1) : IVec S_ 1 :=
  let main_v34 : FVec F S4096x2048 .f32 := Host.absf main_arg9
  let main_cst_12 : FVec F S_ .f32 := constant S_ .f32 0x7F800000#32
  let main_v35 : FVec F S4096x2048 .f32 := broadcastInDim S4096x2048 ![] bcast_S_S4096x2048 main_cst_12
  let main_v36 : IVec S4096x2048 1 := cmpf .olt main_v34 main_v35
  let main_c_13 : IVec S_ 1 := constantI S_ 1 1#1
  let main_v37 : IVec S_ 1 := (fun x v => Host.reduce IntOp.andi x v reducesTo_S4096x2048_S_d0_1 h_S_) main_v36 main_c_13
  let main_v38 : IVec S_ 1 := andi main_v33 main_v37
  let main_v39 : FVec F S2048 .f32 := Host.absf main_arg10
  let main_cst_14 : FVec F S_ .f32 := constant S_ .f32 0x7F800000#32
  let main_v40 : FVec F S2048 .f32 := broadcastInDim S2048 ![] bcast_S_S2048 main_cst_14
  let main_v41 : IVec S2048 1 := cmpf .olt main_v39 main_v40
  let main_c_15 : IVec S_ 1 := constantI S_ 1 1#1
  let main_v42 : IVec S_ 1 := (fun x v => Host.reduce IntOp.andi x v reducesTo_S2048_S_d0 h_S_) main_v41 main_c_15
  let main_v43 : IVec S_ 1 := andi main_v38 main_v42
  main_v43

def fn_part1 {F : FTy → Type} [FloatOps F] (main_arg6 : FVec F S128x1 .f32) (main_arg7 : FVec F S128x1 .f32) (main_arg8 : FVec F S1 .f32) (main_arg9 : FVec F S4096x2048 .f32) (main_arg10 : FVec F S2048 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x1 .f32 := Host.absf main_arg6
  let main_cst_6 : FVec F S_ .f32 := constant S_ .f32 0x7F800000#32
  let main_v20 : FVec F S128x1 .f32 := broadcastInDim S128x1 ![] bcast_S_S128x1 main_cst_6
  let main_v21 : IVec S128x1 1 := cmpf .olt main_v19 main_v20
  let main_c_7 : IVec S_ 1 := constantI S_ 1 1#1
  let main_v22 : IVec S_ 1 := (fun x v => Host.reduce IntOp.andi x v reducesTo_S128x1_S_d0_1 h_S_) main_v21 main_c_7
  let main_v23 : IVec S_ 1 := andi main_v18 main_v22
  let main_v24 : FVec F S128x1 .f32 := Host.absf main_arg7
  let main_cst_8 : FVec F S_ .f32 := constant S_ .f32 0x7F800000#32
  let main_v25 : FVec F S128x1 .f32 := broadcastInDim S128x1 ![] bcast_S_S128x1 main_cst_8
  let main_v26 : IVec S128x1 1 := cmpf .olt main_v24 main_v25
  let main_c_9 : IVec S_ 1 := constantI S_ 1 1#1
  let main_v27 : IVec S_ 1 := (fun x v => Host.reduce IntOp.andi x v reducesTo_S128x1_S_d0_1 h_S_) main_v26 main_c_9
  let main_v28 : IVec S_ 1 := andi main_v23 main_v27
  let main_v29 : FVec F S1 .f32 := Host.absf main_arg8
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg9 main_arg10 main_v33

def fn {F : FTy → Type} [FloatOps F] (main_arg0 : FVec F S131072x1 .f32) (main_arg1 : IVec S2097152 32) (main_arg2 : IVec S2097152 32) (main_arg3 : FVec F S1x128 .f32) (main_arg4 : FVec F S1x128 .f32) (main_arg5 : FVec F S128 .f32) (main_arg6 : FVec F S128x1 .f32) (main_arg7 : FVec F S128x1 .f32) (main_arg8 : FVec F S1 .f32) (main_arg9 : FVec F S4096x2048 .f32) (main_arg10 : FVec F S2048 .f32) : IVec S_ 1 :=
  let main_v0 : FVec F S131072x1 .f32 := Host.absf main_arg0
  let main_cst : FVec F S_ .f32 := constant S_ .f32 0x7F800000#32
  let main_v1 : FVec F S131072x1 .f32 := broadcastInDim S131072x1 ![] bcast_S_S131072x1 main_cst
  let main_v2 : IVec S131072x1 1 := cmpf .olt main_v0 main_v1
  let main_c : IVec S_ 1 := constantI S_ 1 1#1
  let main_v3 : IVec S_ 1 := (fun x v => Host.reduce IntOp.andi x v reducesTo_S131072x1_S_d0_1 h_S_) main_v2 main_c
  let main_v4 : FVec F S1x128 .f32 := Host.absf main_arg3
  let main_cst_0 : FVec F S_ .f32 := constant S_ .f32 0x7F800000#32
  let main_v5 : FVec F S1x128 .f32 := broadcastInDim S1x128 ![] bcast_S_S1x128 main_cst_0
  let main_v6 : IVec S1x128 1 := cmpf .olt main_v4 main_v5
  let main_c_1 : IVec S_ 1 := constantI S_ 1 1#1
  let main_v7 : IVec S_ 1 := (fun x v => Host.reduce IntOp.andi x v reducesTo_S1x128_S_d0_1 h_S_) main_v6 main_c_1
  let main_v8 : IVec S_ 1 := andi main_v3 main_v7
  let main_v9 : FVec F S1x128 .f32 := Host.absf main_arg4
  let main_cst_2 : FVec F S_ .f32 := constant S_ .f32 0x7F800000#32
  let main_v10 : FVec F S1x128 .f32 := broadcastInDim S1x128 ![] bcast_S_S1x128 main_cst_2
  let main_v11 : IVec S1x128 1 := cmpf .olt main_v9 main_v10
  let main_c_3 : IVec S_ 1 := constantI S_ 1 1#1
  let main_v12 : IVec S_ 1 := (fun x v => Host.reduce IntOp.andi x v reducesTo_S1x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_v13 main_v16
-- ==== Kernel.lean ====
abbrev S131072x1 : Shape := ⟨2, ![131072, 1]⟩
abbrev S2097152 : Shape := ⟨1, ![2097152]⟩
abbrev S1x128 : Shape := ⟨2, ![1, 128]⟩
abbrev S128 : Shape := ⟨1, ![128]⟩
abbrev S128x1 : Shape := ⟨2, ![128, 1]⟩
abbrev S1 : Shape := ⟨1, ![1]⟩
abbrev S4096x2048 : Shape := ⟨2, ![4096, 2048]⟩
abbrev S2048 : Shape := ⟨1, ![2048]⟩
abbrev S_ : Shape := ⟨0, ![]⟩
abbrev S131072 : Shape := ⟨1, ![131072]⟩
abbrev S2097152x1 : Shape := ⟨2, ![2097152, 1]⟩
abbrev S131072x128 : Shape := ⟨2, ![131072, 128]⟩
abbrev S8192x1 : Shape := ⟨2, ![8192, 1]⟩
abbrev S8192x128 : Shape := ⟨2, ![8192, 128]⟩
abbrev S2097152x128 : Shape := ⟨2, ![2097152, 128]⟩
abbrev S1x1 : Shape := ⟨2, ![1, 1]⟩
abbrev S8192 : Shape := ⟨1, ![8192]⟩
abbrev S64x2048 : Shape := ⟨2, ![64, 2048]⟩
abbrev S64x4096 : Shape := ⟨2, ![64, 4096]⟩
abbrev S1x2048 : Shape := ⟨2, ![1, 2048]⟩
abbrev S4096x512 : Shape := ⟨2, ![4096, 512]⟩
abbrev S1x512 : Shape := ⟨2, ![1, 512]⟩
abbrev S64x512 : Shape := ⟨2, ![64, 512]⟩

abbrev nBuf : Space → Nat
  | .hbm => 65
  | .vmem => 25
  | .smem => 0
  | _ => 0

abbrev bufTy : (tb : Table) → Fin (tcTables nBuf tb) → BufTy
  | .hbm, ⟨0, _⟩ => ⟨S131072x1, .f32⟩
  | .hbm, ⟨1, _⟩ => ⟨S2097152, .i32⟩
  | .hbm, ⟨2, _⟩ => ⟨S2097152, .i32⟩
  | .hbm, ⟨3, _⟩ => ⟨S1x128, .f32⟩
  | .hbm, ⟨4, _⟩ => ⟨S1x128, .f32⟩
  | .hbm, ⟨5, _⟩ => ⟨S128, .f32⟩
  | .hbm, ⟨6, _⟩ => ⟨S128x1, .f32⟩
  | .hbm, ⟨7, _⟩ => ⟨S128x1, .f32⟩
  | .hbm, ⟨8, _⟩ => ⟨S1, .f32⟩
  | .hbm, ⟨9, _⟩ => ⟨S4096x2048, .f32⟩
  | .hbm, ⟨10, _⟩ => ⟨S2048, .f32⟩
  | .hbm, ⟨11, _⟩ => ⟨S_, .f32⟩
  | .hbm, ⟨12, _⟩ => ⟨S2097152, .f32⟩
  | .hbm, ⟨13, _⟩ => ⟨S_, .f32⟩
  | .hbm, ⟨14, _⟩ => ⟨S131072, .f32⟩
  | .hbm, ⟨15, _⟩ => ⟨S2097152x1, .i32⟩
  | .hbm, ⟨16, _⟩ => ⟨S131072, .f32⟩
  | .hbm, ⟨17, _⟩ => ⟨S_, .f32⟩
  | .hbm, ⟨18, _⟩ => ⟨S131072, .f32⟩
  | .hbm, ⟨19, _⟩ => ⟨S131072, .f32⟩
  | .hbm, ⟨20, _⟩ => ⟨S_, .f32⟩
  | .hbm, ⟨21, _⟩ => ⟨S131072, .f32⟩
  | .hbm, ⟨22, _⟩ => ⟨S131072, .f32⟩
  | .hbm, ⟨23, _⟩ => ⟨S131072x1, .f32⟩
  | .hbm, ⟨24, _⟩ => ⟨S_, .i32⟩
  | .hbm, ⟨25, _⟩ => ⟨S2097152, .i32⟩
  | .hbm, ⟨26, _⟩ => ⟨S2097152, .i1⟩
  | .hbm, ⟨27, _⟩ => ⟨S_, .i32⟩
  | .hbm, ⟨28, _⟩ => ⟨S2097152, .i32⟩
  | .hbm, ⟨29, _⟩ => ⟨S2097152, .i32⟩
  | .hbm, ⟨30, _⟩ => ⟨S2097152, .i32⟩
  | .hbm, ⟨31, _⟩ => ⟨S2097152x1, .i32⟩
  | .hbm, ⟨32, _⟩ => ⟨S2097152x1, .f32⟩
  | .hbm, ⟨33, _⟩ => ⟨S_, .f32⟩
  | .hbm, ⟨34, _⟩ => ⟨S131072x1, .f32⟩
  | .hbm, ⟨35, _⟩ => ⟨S2097152x1, .i32⟩
  | .hbm, ⟨36, _⟩ => ⟨S131072x1, .f32⟩
  | .hbm, ⟨37, _⟩ => ⟨S131072x1, .f32⟩
  | .hbm, ⟨38, _⟩ => ⟨S1x128, .f32⟩
  | .hbm, ⟨39, _⟩ => ⟨S131072x128, .f32⟩
  | .hbm, ⟨40, _⟩ => ⟨S_, .i32⟩
  | .hbm, ⟨41, _⟩ => ⟨S2097152, .i32⟩
  | .hbm, ⟨42, _⟩ => ⟨S2097152, .i1⟩
  | .hbm, ⟨43, _⟩ => ⟨S_, .i32⟩
  | .hbm, ⟨44, _⟩ => ⟨S2097152, .i32⟩
  | .hbm, ⟨45, _⟩ => ⟨S2097152, .i32⟩
  | .hbm, ⟨46, _⟩ => ⟨S2097152, .i32⟩
  | .hbm, ⟨47, _⟩ => ⟨S2097152x1, .i32⟩
  | .hbm, ⟨48, _⟩ => ⟨S2097152x128, .f32⟩
  | .hbm, ⟨49, _⟩ => ⟨S_, .f32⟩
  | .hbm, ⟨50, _⟩ => ⟨S131072x128, .f32⟩
  | .hbm, ⟨51, _⟩ => ⟨S2097152x1, .i32⟩
  | .hbm, ⟨52, _⟩ => ⟨S131072x128, .f32⟩
  | .hbm, ⟨53, _⟩ => ⟨S131072x128, .f32⟩
  | .hbm, ⟨54, _⟩ => ⟨S131072x128, .f32⟩
  | .hbm, ⟨55, _⟩ => ⟨S1x128, .f32⟩
  | .hbm, ⟨56, _⟩ => ⟨S1x128, .f32⟩
  | .hbm, ⟨57, _⟩ => ⟨S1x1, .f32⟩
  | .hbm, ⟨58, _⟩ => ⟨S131072x1, .f32⟩
  | .hbm, ⟨59, _⟩ => ⟨S64x2048, .f32⟩
  | .hbm, ⟨60, _⟩ => ⟨S64x2048, .f32⟩
  | .hbm, ⟨61, _⟩ => ⟨S64x4096, .f32⟩
  | .hbm, ⟨62, _⟩ => ⟨S64x4096, .f32⟩
  | .hbm, ⟨63, _⟩ => ⟨S1x2048, .f32⟩
  | .hbm, ⟨64, _⟩ => ⟨S64x2048, .f32⟩
  | .local _ .vmem, ⟨0, _⟩ => ⟨S8192x1, .f32⟩
  | .local _ .vmem, ⟨1, _⟩ => ⟨S8192x1, .f32⟩
  | .local _ .vmem, ⟨2, _⟩ => ⟨S8192x1, .f32⟩
  | .local _ .vmem, ⟨3, _⟩ => ⟨S8192x1, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | .local _ .vmem, ⟨7, _⟩ => ⟨S8192x128, .f32⟩
  | .local _ .vmem, ⟨8, _⟩ => ⟨S8192x128, .f32⟩
  | .local _ .vmem, ⟨9, _⟩ => ⟨S8192x128, .f32⟩
  | .local _ .vmem, ⟨10, _⟩ => ⟨S8192x128, .f32⟩
  | .local _ .vmem, ⟨11, _⟩ => ⟨S8192x128, .f32⟩
  | .local _ .vmem, ⟨12, _⟩ => ⟨S8192x128, .f32⟩
  | .local _ .vmem, ⟨13, _⟩ => ⟨S1x128, .f32⟩
  | .local _ .vmem, ⟨14, _⟩ => ⟨S1x128, .f32⟩
  | .local _ .vmem, ⟨15, _⟩ => ⟨S1x1, .f32⟩
  | .local _ .vmem, ⟨16, _⟩ => ⟨S8192x1, .f32⟩
  | .local _ .vmem, ⟨17, _⟩ => ⟨S8192x1, .f32⟩
  | .local _ .vmem, ⟨18, _⟩ => ⟨S64x4096, .f32⟩
  | .local _ .vmem, ⟨19, _⟩ => ⟨S4096x512, .f32⟩
  | .local _ .vmem, ⟨20, _⟩ => ⟨S4096x512, .f32⟩
  | .local _ .vmem, ⟨21, _⟩ => ⟨S1x512, .f32⟩
  | .local _ .vmem, ⟨22, _⟩ => ⟨S1x512, .f32⟩
  | .local _ .vmem, ⟨23, _⟩ => ⟨S64x512, .f32⟩
  | .local _ .vmem, ⟨24, _⟩ => ⟨S64x512, .f32⟩
  | _, _ => ⟨S131072x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_1 : Ref sig .tc := ⟨.hbm, 17, rfl⟩
abbrev main_v4 : Ref sig .tc := ⟨.hbm, 18, rfl⟩
abbrev main_v5 : Ref sig .tc := ⟨.hbm, 19, rfl⟩
abbrev main_cst_2 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_c : Ref sig .tc := ⟨.hbm, 24, rfl⟩
abbrev main_v9 : Ref sig .tc := ⟨.hbm, 25, rfl⟩
abbrev main_v10 : Ref sig .tc := ⟨.hbm, 26, rfl⟩
abbrev main_c_3 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_4 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_5 : Ref sig .tc := ⟨.hbm, 40, rfl⟩
abbrev main_v22 : Ref sig .tc := ⟨.hbm, 41, rfl⟩
abbrev main_v23 : Ref sig .tc := ⟨.hbm, 42, rfl⟩
abbrev main_c_6 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_7 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg3_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem3_1 : DmaSem sig := 24

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8192x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8192x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S8192x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 1 → Memref sig .tc .vmem S64x4096 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S4096x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S64x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bcast_S_S2097152 : S_.BroadcastsInDim S2097152 (![] : Fin 0 → Fin S2097152.rank)
  bcast_S_S131072 : S_.BroadcastsInDim S131072 (![] : Fin 0 → Fin S131072.rank)
  bcast_S2097152_S2097152x1_0 : S2097152.BroadcastsInDim S2097152x1 (![0] : Fin 1 → Fin S2097152x1.rank)
  shapeCasts_S131072_S131072x1 : S131072.ShapeCasts S131072x1
  bcast_S_S131072x1 : S_.BroadcastsInDim S131072x1 (![] : Fin 0 → Fin S131072x1.rank)
  shapeCasts_S128_S1x128 : S128.ShapeCasts S1x128
  inb_S8192x1_S8192x1_0_0 : ∀ a, (![0, 0] : Fin 2 → Nat) a + S8192x1.size a ≤ S8192x1.size a
  h_S8192x1 : 0 < S8192x1.numel
  shapeCasts_S8192x1_S8192x1 : S8192x1.ShapeCasts S8192x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S8192x1_S8192x128 : S8192x1.Broadcasts S8192x128
  broadcasts_S1x128_S8192x128 : S1x128.Broadcasts S8192x128
  inb_S8192x128_S8192x128_0_0 : ∀ a, (![0, 0] : Fin 2 → Nat) a + S8192x128.size a ≤ S8192x128.size a
  h_S8192x128 : 0 < S8192x128.numel
  bcast_S_S131072x128 : S_.BroadcastsInDim S131072x128 (![] : Fin 0 → Fin S131072x128.rank)
  bcast_S131072x1_S131072x128_0_1 : S131072x1.BroadcastsInDim S131072x128 (![0, 1] : Fin 2 → Fin S131072x128.rank)
  shapeCasts_S128x1_S1x128 : S128x1.ShapeCasts S1x128
  shapeCasts_S1_S1x1 : S1.ShapeCasts S1x1
  shapeCasts_S8192x128_S8192x128 : S8192x128.ShapeCasts S8192x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  reduces_S8192x128_S8192 : S8192x128.Reduces [1] S8192
  shapeCasts_S8192_S8192x1 : S8192.ShapeCasts S8192x1
  broadcasts_S1x1_S8192x1 : S1x1.Broadcasts S8192x1
  shapeCasts_S131072x1_S64x2048 : S131072x1.ShapeCasts S64x2048
  concatenates_S64x2048_S64x2048_S64x4096_d1 : Shape.Concatenates [S64x2048, S64x2048] S64x4096 1
  shapeCasts_S2048_S1x2048 : S2048.ShapeCasts S1x2048
  inb_S64x4096_S64x4096_0_0 : ∀ a, (![0, 0] : Fin 2 → Nat) a + S64x4096.size a ≤ S64x4096.size a
  h_S64x4096 : 0 < S64x4096.numel
  shapeCasts_S64x4096_S64x4096 : S64x4096.ShapeCasts S64x4096
  bitsLt_bf16_f32 : FTy.bits .bf16 < FTy.bits .f32
  inb_S4096x512_S4096x512_0_0 : ∀ a, (![0, 0] : Fin 2 → Nat) a + S4096x512.size a ≤ S4096x512.size a
  h_S4096x512 : 0 < S4096x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S64x512 : S1x512.Broadcasts S64x512
  inb_S64x512_S64x512_0_0 : ∀ a, (![0, 0] : Fin 2 → Nat) a + S64x512.size a ≤ S64x512.size a
  h_S64x512 : 0 < S64x512.numel
  scatter_S131072_S2097152x1_S2097152_n_0_0_1_wf : ScatterDims.WF S131072 S2097152x1 S2097152 [] [0] [0] 1
  gather_S131072x1_S2097152x1_S2097152x1_1_0_n_n_0_1_11_wf : GatherDims.WF S131072x1 S2097152x1 S2097152x1 [1] [0] [] [0] [] 1 ![1, 1]
  scatter_S131072x1_S2097152x1_S2097152x1_1_0_0_1_wf : ScatterDims.WF S131072x1 S2097152x1 S2097152x1 [1] [0] [0] 1
  gather_S131072x128_S2097152x1_S2097152x128_1_0_n_n_0_1_1128_wf : GatherDims.WF S131072x128 S2097152x1 S2097152x128 [1] [0] [] [0] [] 1 ![1, 128]
  scatter_S131072x128_S2097152x1_S2097152x128_1_0_0_1_wf : ScatterDims.WF S131072x128 S2097152x1 S2097152x128 [1] [0] [0] 1
  dot_S64x4096_S4096x512_S64x512_1_0_0_1_n_n_wf : DotDims.WF S64x4096 S4096x512 S64x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x1.size a ≤ S131072x1.size a
  hwx0_0 : ∀ i : grid0.Coords, EltTy.bits .f32 = 32 ∨ (Rect.block (s := S131072x1) S8192x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x1.size a ≤ S131072x1.size a
  hwx0_1 : ∀ i : grid0.Coords, EltTy.bits .f32 = 32 ∨ (Rect.block (s := S131072x1) S8192x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8192x128.size a ≤ S131072x128.size a
  hwx0_5 : ∀ i : grid0.Coords, EltTy.bits .f32 = 32 ∨ (Rect.block (s := S131072x128) S8192x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x128.size a ≤ S131072x128.size a
  hwx1_0 : ∀ i : grid1.Coords, EltTy.bits .f32 = 32 ∨ (Rect.block (s := S131072x128) S8192x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8192x128.size a ≤ S131072x128.size a
  hwx1_1 : ∀ i : grid1.Coords, EltTy.bits .f32 = 32 ∨ (Rect.block (s := S131072x128) S8192x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S8192x1.size a ≤ S131072x1.size a
  hwx1_5 : ∀ i : grid1.Coords, EltTy.bits .f32 = 32 ∨ (Rect.block (s := S131072x1) S8192x1.size (cc1_transform_5 i) (hinb1_5 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S64x4096.size a ≤ S64x4096.size a
  hwx2_0 : ∀ i : grid2.Coords, EltTy.bits .f32 = 32 ∨ (Rect.block (s := S64x4096) S64x4096.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4096x512.size a ≤ S4096x2048.size a
  hwx2_1 : ∀ i : grid2.Coords, EltTy.bits .f32 = 32 ∨ (Rect.block (s := S4096x2048) S4096x512.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x512.size a ≤ S1x2048.size a
  hwx2_2 : ∀ i : grid2.Coords, EltTy.bits .f32 = 32 ∨ (Rect.block (s := S1x2048) S1x512.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S64x512.size a ≤ S64x2048.size a
  hwx2_3 : ∀ i : grid2.Coords, EltTy.bits .f32 = 32 ∨ (Rect.block (s := S64x2048) S64x512.size (cc2_transform_3 i) (hinb2_3 i)).WholeWords (EltTy.packing .f32)

variable [Facts₀]

def scatter_S131072_S2097152x1_S2097152_n_0_0_1 : ScatterDims S131072 S2097152x1 S2097152 where
  updateWindowDims := []
  insertedWindowDims := [0]
  scatterDimsToOperandDims := [0]
  indexVectorDim := 1
  wf := scatter_S131072_S2097152x1_S2097152_n_0_0_1_wf
def gather_S131072x1_S2097152x1_S2097152x1_1_0_n_n_0_1_11 : GatherDims S131072x1 S2097152x1 S2097152x1 where
  offsetDims := [1]
  collapsedSliceDims := [0]
  operandBatchingDims := []
  startIndicesBatchingDims := []
  startIndexMap := [0]
  indexVectorDim := 1
  sliceSizes := ![1, 1]
  wf := gather_S131072x1_S2097152x1_S2097152x1_1_0_n_n_0_1_11_wf
def scatter_S131072x1_S2097152x1_S2097152x1_1_0_0_1 : ScatterDims S131072x1 S2097152x1 S2097152x1 where
  updateWindowDims := [1]
  insertedWindowDims := [0]
  scatterDimsToOperandDims := [0]
  indexVectorDim := 1
  wf := scatter_S131072x1_S2097152x1_S2097152x1_1_0_0_1_wf
def gather_S131072x128_S2097152x1_S2097152x128_1_0_n_n_0_1_1128 : GatherDims S131072x128 S2097152x1 S2097152x128 where
  offsetDims := [1]
  collapsedSliceDims := [0]
  operandBatchingDims := []
  startIndicesBatchingDims := []
  startIndexMap := [0]
  indexVectorDim := 1
  sliceSizes := ![1, 128]
  wf := gather_S131072x128_S2097152x1_S2097152x128_1_0_n_n_0_1_1128_wf
def scatter_S131072x128_S2097152x1_S2097152x128_1_0_0_1 : ScatterDims S131072x128 S2097152x1 S2097152x128 where
  updateWindowDims := [1]
  insertedWindowDims := [0]
  scatterDimsToOperandDims := [0]
  indexVectorDim := 1
  wf := scatter_S131072x128_S2097152x1_S2097152x128_1_0_0_1_wf
def dot_S64x4096_S4096x512_S64x512_1_0_0_1_n_n : DotDims S64x4096 S4096x512 S64x512 where
  lhsContracting := [1]
  rhsContracting := [0]
  lhsNonContracting := [0]
  rhsNonContracting := [1]
  lhsBatch := []
  rhsBatch := []
  wf := dot_S64x4096_S4096x512_S64x512_1_0_0_1_n_n_wf

abbrev win0_0 : Pipeline.Window sig grid0 :=
  Pipeline.Window.ofSpec (Memref.whole main_arg0) S8192x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S8192x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S8192x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v21) S8192x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S8192x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v34) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v35) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v36) S1x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v37) S8192x1.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v41) S64x4096.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg9) S4096x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v42) S1x512.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v43) S64x512.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S131072x1 : Shape := ⟨2, ![131072, 1]⟩
abbrev S2097152 : Shape := ⟨1, ![2097152]⟩
abbrev S1x128 : Shape := ⟨2, ![1, 128]⟩
abbrev S128 : Shape := ⟨1, ![128]⟩
abbrev S128x1 : Shape := ⟨2, ![128, 1]⟩
abbrev S1 : Shape := ⟨1, ![1]⟩
abbrev S4096x2048 : Shape := ⟨2, ![4096, 2048]⟩
abbrev S2048 : Shape := ⟨1, ![2048]⟩
abbrev S_ : Shape := ⟨0, ![]⟩
abbrev S2097152x1 : Shape := ⟨2, ![2097152, 1]⟩
abbrev S131072 : Shape := ⟨1, ![131072]⟩
abbrev S131072x128 : Shape := ⟨2, ![131072, 128]⟩
abbrev S2097152x128 : Shape := ⟨2, ![2097152, 128]⟩
abbrev S1x1 : Shape := ⟨2, ![1, 1]⟩
abbrev S64x2048 : Shape := ⟨2, ![64, 2048]⟩
abbrev S64x4096 : Shape := ⟨2, ![64, 4096]⟩
abbrev S1x2048 : Shape := ⟨2, ![1, 2048]⟩

abbrev nBuf : Space → Nat
  | .hbm => 81
  | .vmem => 0
  | .smem => 0
  | _ => 0

abbrev bufTy : (tb : Table) → Fin (tcTables nBuf tb) → BufTy
  | .hbm, ⟨0, _⟩ => ⟨S131072x1, .f32⟩
  | .hbm, ⟨1, _⟩ => ⟨S2097152, .i32⟩
  | .hbm, ⟨2, _⟩ => ⟨S2097152, .i32⟩
  | .hbm, ⟨3, _⟩ => ⟨S1x128, .f32⟩
  | .hbm, ⟨4, _⟩ => ⟨S1x128, .f32⟩
  | .hbm, ⟨5, _⟩ => ⟨S128, .f32⟩
  | .hbm, ⟨6, _⟩ => ⟨S128x1, .f32⟩
  | .hbm, ⟨7, _⟩ => ⟨S128x1, .f32⟩
  | .hbm, ⟨8, _⟩ => ⟨S1, .f32⟩
  | .hbm, ⟨9, _⟩ => ⟨S4096x2048, .f32⟩
  | .hbm, ⟨10, _⟩ => ⟨S2048, .f32⟩
  | .hbm, ⟨11, _⟩ => ⟨S_, .i32⟩
  | .hbm, ⟨12, _⟩ => ⟨S2097152, .i32⟩
  | .hbm, ⟨13, _⟩ => ⟨S2097152, .i1⟩
  | .hbm, ⟨14, _⟩ => ⟨S_, .i32⟩
  | .hbm, ⟨15, _⟩ => ⟨S2097152, .i32⟩
  | .hbm, ⟨16, _⟩ => ⟨S2097152, .i32⟩
  | .hbm, ⟨17, _⟩ => ⟨S2097152, .i32⟩
  | .hbm, ⟨18, _⟩ => ⟨S2097152x1, .i32⟩
  | .hbm, ⟨19, _⟩ => ⟨S2097152x1, .f32⟩
  | .hbm, ⟨20, _⟩ => ⟨S_, .f32⟩
  | .hbm, ⟨21, _⟩ => ⟨S131072x1, .f32⟩
  | .hbm, ⟨22, _⟩ => ⟨S2097152x1, .i32⟩
  | .hbm, ⟨23, _⟩ => ⟨S131072x1, .f32⟩
  | .hbm, ⟨24, _⟩ => ⟨S_, .f32⟩
  | .hbm, ⟨25, _⟩ => ⟨S2097152, .f32⟩
  | .hbm, ⟨26, _⟩ => ⟨S_, .f32⟩
  | .hbm, ⟨27, _⟩ => ⟨S131072, .f32⟩
  | .hbm, ⟨28, _⟩ => ⟨S2097152x1, .i32⟩
  | .hbm, ⟨29, _⟩ => ⟨S131072, .f32⟩
  | .hbm, ⟨30, _⟩ => ⟨S_, .f32⟩
  | .hbm, ⟨31, _⟩ => ⟨S131072, .f32⟩
  | .hbm, ⟨32, _⟩ => ⟨S131072, .f32⟩
  | .hbm, ⟨33, _⟩ => ⟨S131072x1, .f32⟩
  | .hbm, ⟨34, _⟩ => ⟨S131072x1, .f32⟩
  | .hbm, ⟨35, _⟩ => ⟨S131072x128, .f32⟩
  | .hbm, ⟨36, _⟩ => ⟨S131072x128, .f32⟩
  | .hbm, ⟨37, _⟩ => ⟨S131072x128, .f32⟩
  | .hbm, ⟨38, _⟩ => ⟨S1x128, .f32⟩
  | .hbm, ⟨39, _⟩ => ⟨S131072x128, .f32⟩
  | .hbm, ⟨40, _⟩ => ⟨S131072x128, .f32⟩
  | .hbm, ⟨41, _⟩ => ⟨S131072x128, .f32⟩
  | .hbm, ⟨42, _⟩ => ⟨S_, .i32⟩
  | .hbm, ⟨43, _⟩ => ⟨S2097152, .i32⟩
  | .hbm, ⟨44, _⟩ => ⟨S2097152, .i1⟩
  | .hbm, ⟨45, _⟩ => ⟨S_, .i32⟩
  | .hbm, ⟨46, _⟩ => ⟨S2097152, .i32⟩
  | .hbm, ⟨47, _⟩ => ⟨S2097152, .i32⟩
  | .hbm, ⟨48, _⟩ => ⟨S2097152, .i32⟩
  | .hbm, ⟨49, _⟩ => ⟨S2097152x1, .i32⟩
  | .hbm, ⟨50, _⟩ => ⟨S2097152x128, .f32⟩
  | .hbm, ⟨51, _⟩ => ⟨S_, .f32⟩
  | .hbm, ⟨52, _⟩ => ⟨S131072x128, .f32⟩
  | .hbm, ⟨53, _⟩ => ⟨S2097152x1, .i32⟩
  | .hbm, ⟨54, _⟩ => ⟨S131072x128, .f32⟩
  | .hbm, ⟨55, _⟩ => ⟨S_, .f32⟩
  | .hbm, ⟨56, _⟩ => ⟨S2097152, .f32⟩
  | .hbm, ⟨57, _⟩ => ⟨S_, .f32⟩
  | .hbm, ⟨58, _⟩ => ⟨S131072, .f32⟩
  | .hbm, ⟨59, _⟩ => ⟨S2097152x1, .i32⟩
  | .hbm, ⟨60, _⟩ => ⟨S131072, .f32⟩
  | .hbm, ⟨61, _⟩ => ⟨S_, .f32⟩
  | .hbm, ⟨62, _⟩ => ⟨S131072, .f32⟩
  | .hbm, ⟨63, _⟩ => ⟨S131072, .f32⟩
  | .hbm, ⟨64, _⟩ => ⟨S131072x1, .f32⟩
  | .hbm, ⟨65, _⟩ => ⟨S131072x128, .f32⟩
  | .hbm, ⟨66, _⟩ => ⟨S131072x128, .f32⟩
  | .hbm, ⟨67, _⟩ => ⟨S131072x1, .f32⟩
  | .hbm, ⟨68, _⟩ => ⟨S131072x1, .f32⟩
  | .hbm, ⟨69, _⟩ => ⟨S131072x1, .f32⟩
  | .hbm, ⟨70, _⟩ => ⟨S1x1, .f32⟩
  | .hbm, ⟨71, _⟩ => ⟨S131072x1, .f32⟩
  | .hbm, ⟨72, _⟩ => ⟨S131072x1, .f32⟩
  | .hbm, ⟨73, _⟩ => ⟨S64x2048, .f32⟩
  | .hbm, ⟨74, _⟩ => ⟨S64x2048, .f32⟩
  | .hbm, ⟨75, _⟩ => ⟨S64x4096, .f32⟩
  | .hbm, ⟨76, _⟩ => ⟨S64x4096, .f32⟩
  | .hbm, ⟨77, _⟩ => ⟨S64x2048, .f32⟩
  | .hbm, ⟨78, _⟩ => ⟨S1x2048, .f32⟩
  | .hbm, ⟨79, _⟩ => ⟨S64x2048, .f32⟩
  | .hbm, ⟨80, _⟩ => ⟨S64x2048, .f32⟩
  | _, _ => ⟨S131072x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_cst_2 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_3 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_4 : Ref sig .tc := ⟨.hbm, 42, rfl⟩
abbrev main_v25 : Ref sig .tc := ⟨.hbm, 43, rfl⟩
abbrev main_v26 : Ref sig .tc := ⟨.hbm, 44, rfl⟩
abbrev main_c_5 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_6 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_7 : Ref sig .tc := ⟨.hbm, 55, rfl⟩
abbrev main_v35 : Ref sig .tc := ⟨.hbm, 56, rfl⟩
abbrev main_cst_8 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_9 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩

abbrev nD : Nat := 1
abbrev τ : Topo := Topo.v7x

variable {F : FTy → Type} [FloatOps F]

class Facts₀ : Prop where
  bcast_S_S2097152 : S_.BroadcastsInDim S2097152 (![] : Fin 0 → Fin S2097152.rank)
  bcast_S2097152_S2097152x1_0 : S2097152.BroadcastsInDim S2097152x1 (![0] : Fin 1 → Fin S2097152x1.rank)
  bcast_S_S131072x1 : S_.BroadcastsInDim S131072x1 (![] : Fin 0 → Fin S131072x1.rank)
  bcast_S_S131072 : S_.BroadcastsInDim S131072 (![] : Fin 0 → Fin S131072.rank)
  bcast_S131072_S131072x1_0 : S131072.BroadcastsInDim S131072x1 (![0] : Fin 1 → Fin S131072x1.rank)
  bcast_S128_S1x128_1 : S128.BroadcastsInDim S1x128 (![1] : Fin 1 → Fin S1x128.rank)
  bcast_S1x128_S131072x128_0_1 : S1x128.BroadcastsInDim S131072x128 (![0, 1] : Fin 2 → Fin S131072x128.rank)
  bcast_S_S131072x128 : S_.BroadcastsInDim S131072x128 (![] : Fin 0 → Fin S131072x128.rank)
  bcast_S131072x1_S131072x128_0_1 : S131072x1.BroadcastsInDim S131072x128 (![0, 1] : Fin 2 → Fin S131072x128.rank)
  bcast_S1_S1x1_1 : S1.BroadcastsInDim S1x1 (![1] : Fin 1 → Fin S1x1.rank)
  bcast_S1x1_S131072x1_0_1 : S1x1.BroadcastsInDim S131072x1 (![0, 1] : Fin 2 → Fin S131072x1.rank)
  shapeCasts_S131072x1_S64x2048 : S131072x1.ShapeCasts S64x2048
  concatenates_S64x2048_S64x2048_S64x4096_d1 : Shape.Concatenates [S64x2048, S64x2048] S64x4096 1
  bcast_S2048_S1x2048_1 : S2048.BroadcastsInDim S1x2048 (![1] : Fin 1 → Fin S1x2048.rank)
  bcast_S1x2048_S64x2048_0_1 : S1x2048.BroadcastsInDim S64x2048 (![0, 1] : Fin 2 → Fin S64x2048.rank)
  gather_S131072x1_S2097152x1_S2097152x1_1_0_n_n_0_1_11_wf : GatherDims.WF S131072x1 S2097152x1 S2097152x1 [1] [0] [] [0] [] 1 ![1, 1]
  scatter_S131072x1_S2097152x1_S2097152x1_1_0_0_1_wf : ScatterDims.WF S131072x1 S2097152x1 S2097152x1 [1] [0] [0] 1
  scatter_S131072_S2097152x1_S2097152_n_0_0_1_wf : ScatterDims.WF S131072 S2097152x1 S2097152 [] [0] [0] 1
  dot_S131072x1_S1x128_S131072x128_1_0_0_1_n_n_wf : DotDims.WF S131072x1 S1x128 S131072x128 [1] [0] [0] [1] [] []
  gather_S131072x128_S2097152x1_S2097152x128_1_0_n_n_0_1_1128_wf : GatherDims.WF S131072x128 S2097152x1 S2097152x128 [1] [0] [] [0] [] 1 ![1, 128]
  scatter_S131072x128_S2097152x1_S2097152x128_1_0_0_1_wf : ScatterDims.WF S131072x128 S2097152x1 S2097152x128 [1] [0] [0] 1
  dot_S131072x128_S128x1_S131072x1_1_0_0_1_n_n_wf : DotDims.WF S131072x128 S128x1 S131072x1 [1] [0] [0] [1] [] []
  dot_S64x4096_S4096x2048_S64x2048_1_0_0_1_n_n_wf : DotDims.WF S64x4096 S4096x2048 S64x2048 [1] [0] [0] [1] [] []

variable [Facts₀]

def gather_S131072x1_S2097152x1_S2097152x1_1_0_n_n_0_1_11 : GatherDims S131072x1 S2097152x1 S2097152x1 where
  offsetDims := [1]
  collapsedSliceDims := [0]
  operandBatchingDims := []
  startIndicesBatchingDims := []
  startIndexMap := [0]
  indexVectorDim := 1
  sliceSizes := ![1, 1]
  wf := gather_S131072x1_S2097152x1_S2097152x1_1_0_n_n_0_1_11_wf
def scatter_S131072x1_S2097152x1_S2097152x1_1_0_0_1 : ScatterDims S131072x1 S2097152x1 S2097152x1 where
  updateWindowDims := [1]
  insertedWindowDims := [0]
  scatterDimsToOperandDims := [0]
  indexVectorDim := 1
  wf := scatter_S131072x1_S2097152x1_S2097152x1_1_0_0_1_wf
def scatter_S131072_S2097152x1_S2097152_n_0_0_1 : ScatterDims S131072 S2097152x1 S2097152 where
  updateWindowDims := []
  insertedWindowDims := [0]
  scatterDimsToOperandDims := [0]
  indexVectorDim := 1
  wf := scatter_S131072_S2097152x1_S2097152_n_0_0_1_wf
def dot_S131072x1_S1x128_S131072x128_1_0_0_1_n_n : DotDims S131072x1 S1x128 S131072x128 where
  lhsContracting := [1]
  rhsContracting := [0]
  lhsNonContracting := [0]
  rhsNonContracting := [1]
  lhsBatch := []
  rhsBatch := []
  wf := dot_S131072x1_S1x128_S131072x128_1_0_0_1_n_n_wf
def gather_S131072x128_S2097152x1_S2097152x128_1_0_n_n_0_1_1128 : GatherDims S131072x128 S2097152x1 S2097152x128 where
  offsetDims := [1]
  collapsedSliceDims := [0]
  operandBatchingDims := []
  startIndicesBatchingDims := []
  startIndexMap := [0]
  indexVectorDim := 1
  sliceSizes := ![1, 128]
  wf := gather_S131072x128_S2097152x1_S2097152x128_1_0_n_n_0_1_1128_wf
def scatter_S131072x128_S2097152x1_S2097152x128_1_0_0_1 : ScatterDims S131072x128 S2097152x1 S2097152x128 where
  updateWindowDims := [1]
  insertedWindowDims := [0]
  scatterDimsToOperandDims := [0]
  indexVectorDim := 1
  wf := scatter_S131072x128_S2097152x1_S2097152x128_1_0_0_1_wf
def dot_S131072x128_S128x1_S131072x1_1_0_0_1_n_n : DotDims S131072x128 S128x1 S131072x1 where
  lhsContracting := [1]
  rhsContracting := [0]
  lhsNonContracting := [0]
  rhsNonContracting := [1]
  lhsBatch := []
  rhsBatch := []
  wf := dot_S131072x128_S128x1_S131072x1_1_0_0_1_n_n_wf
def dot_S64x4096_S4096x2048_S64x2048_1_0_0_1_n_n : DotDims S64x4096 S4096x2048 S64x2048 where
  lhsContracting := [1]
  rhsContracting := [0]
  lhsNonContracting := [0]
  rhsNonContracting := [1]
  lhsBatch := []
  rhsBatch := []
  wf := dot_S64x4096_S4096x2048_S64x2048_1_0_0_1_n_n_wf

class Facts : Prop extends Facts₀ where

variable [Facts]
-- ==== Proof.RefFrame.lean ====
/-
  The reference program has no kernel: every weakly fair execution of its host operations terminates with the
  argument arrays unchanged, which is its run with the two results dropped.
-/
import proofs.«100859_j77670188581040_1_alg».proof.Defs
import proofs.«100859_j77670188581040_1_alg».proof.Proof.Gen.ReferenceIdeal
import proofs.«100859_j77670188581040_1_alg».proof.Proof.Gen.ReferenceIdeal.Run
import proofs.«100859_j77670188581040_1_alg».proof.Proof.Gen.Pre_finite_inputs

noncomputable section

open Idealize.ShloMosaic Idealize.ShloMosaic.TcCoe Idealize.SL.Sem

namespace Cert.Proof.RefFrame

theorem frame : Cert.frame_ReferenceIdeal := fun m ρ _ =>
  (θ_run Cert.ReferenceIdeal.defs _ _).mono (fun _ h c => (h c).2.2) (Cert.ReferenceIdeal.Value.run (F := Ideal) m ρ)

end Cert.Proof.RefFrame

end
-- ==== Proof.KernelRun.lean ====
/-
  The idealized kernel program's run with its two results named.

  The program is three pipelined regions among stretches of host operations. Every weakly fair execution terminates, and
  in the final state every buffer that is not scoped to a region holds the contents of the last segment boundary, the
  fold `W6` of the host stretches and the regions' write-backs over the launch memory. Read at the two result buffers
  (the reshaped score column, written by the last host stretch, and the fused output, the last region's array) and at
  the eleven arguments (which nothing writes), this is the run the value claim is stated over.
-/
import proofs.«100859_j77670188581040_1_alg».proof.Proof.Gen.KernelIdeal.Frame

set_option maxRecDepth 16384

noncomputable section

namespace Cert.KernelIdeal.Results

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates with the two result buffers at the last boundary's contents and the
    arguments as launched. -/
theorem run : θ_run defs (onTc (τ := τ) (main (F := F))) ⟨m, fun _ => 0, ρ⟩ (fun r => ∀ c : Dev nD,
      r.2.mem ((c.tc : Thread nD τ).loc main_v38) = W6 m ρ c (Proc.devRef .tc main_v38)
      ∧ r.2.mem ((c.tc : Thread nD τ).loc main_v43) = W6 m ρ c (Proc.devRef .tc main_v43)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v38 (by decide)),
       h c _ (mem_uc main_v43 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c)⟩)

end Cert.KernelIdeal.Results

end
-- ==== Proof.HostStretches.lean ====
/-
  What the three stretches of host operations compute, as functions of the buffer contents they start from.

  Before the first region: the degree of every node (a scatter-add of ones at the edges' destinations), clamped below
  by 1, its reciprocal reshaped to a column; the first neighbour sum (the feature gathered at the edges' sources,
  scatter-added at their destinations) times that reciprocal column; the bias vector reshaped to a row. Between the
  first two regions: the second neighbour sum, of the hidden array's rows, times the reciprocal column repeated along
  the 128 units; the two weight columns reshaped to rows and the bias entry to a [1, 1] array. Before the last region:
  the score column reshaped to [64, 2048] (the first result), joined with the feature column reshaped the same way
  along the second axis, the tanh of that, and the last bias vector reshaped to a row. The argument buffers are
  written by no host operation. The gather, the scatter-add and the index arithmetic on the edge lists are the same
  operations on the same operands as the reference's, and are never opened.
-/
import proofs.«100859_j77670188581040_1_alg».proof.Proof.Gen.KernelIdeal.Launch
import proofs.«100859_j77670188581040_1_alg».proof.Proof.Gen.ReferenceIdeal.Read
import Idealize.ShloMosaic.Lib.StableHlo.Run

set_option maxRecDepth 16384

noncomputable section

namespace Cert.KernelIdeal.HostStretches

open Idealize.ShloMosaic Idealize.ShloMosaic.TcCoe Idealize.SL.Sem Idealize.ShloMosaic.StableHlo
open Cert.KernelIdeal Cert.KernelIdeal.Gen
open Cert.ReferenceIdeal.Read

/-- The neighbour sum of an [N, 128] array: its rows gathered at the edges' sources (a negative source index counted
    from the end) and added up at the edges' destinations. -/
def neighbourSum (h : (⟨Cert.ReferenceIdeal.S131072x128, .f32⟩ : BufTy).Contents (Elt Ideal))
    (a1 a2 : (⟨Cert.ReferenceIdeal.S2097152, .i32⟩ : BufTy).Contents (Elt Ideal)) :
    (⟨Cert.ReferenceIdeal.S131072x128, .f32⟩ : BufTy).Contents (Elt Ideal) :=
  Host.scatterAdd (F := Ideal) (φ := .f32) Cert.ReferenceIdeal.scatter_S131072x128_S2097152x1_S2097152x128_1_0_0_1 (val_main_v32 (F := Ideal))
    (val_main_v33 (F := Ideal) a2)
    (Host.gather (α := Ideal .f32) Cert.ReferenceIdeal.gather_S131072x128_S2097152x1_S2097152x128_1_0_n_n_0_1_1128 h (val_main_v30 (F := Ideal) a1))

/-- The reciprocal of the clamped degree, as a vector over the nodes. -/
def recipDegree (a2 : (⟨Cert.ReferenceIdeal.S2097152, .i32⟩ : BufTy).Contents (Elt Ideal)) :
    (⟨Cert.ReferenceIdeal.S131072, .f32⟩ : BufTy).Contents (Elt Ideal) :=
  Host.divf (F := Ideal) (s := Cert.ReferenceIdeal.S131072) (φ := .f32) (val_main_v14 (F := Ideal)) (val_main_v15 (F := Ideal) a2)

variable (W : Valuation τ sig (Elt Ideal))

/-! ## Before the first region -/

set_option maxHeartbeats 8000000 in
/-- The first neighbour mean: the neighbour sum of the feature column times the reciprocal-degree column. -/
theorem neigh1 :
    StableHlo.after (hostOps0 (F := Ideal)) W (Proc.devRef .tc main_v19)
      = mulf (F := Ideal) (s := S131072x1) (φ := .f32)
          (val_main_v9 (F := Ideal) (W (Proc.devRef .tc main_arg0)) (W (Proc.devRef .tc main_arg1)) (W (Proc.devRef .tc main_arg2)))
          (shapeCast S131072x1 (recipDegree (W (Proc.devRef .tc main_arg2))) shapeCasts_S131072_S131072x1) := by
  after_results_simp
  rfl

set_option maxHeartbeats 8000000 in
/-- The reciprocal-degree column. -/
theorem recip :
    StableHlo.after (hostOps0 (F := Ideal)) W (Proc.devRef .tc main_v8)
      = shapeCast S131072x1 (recipDegree (W (Proc.devRef .tc main_arg2))) shapeCasts_S131072_S131072x1 := by
  after_results_simp
  rfl

set_option maxHeartbeats 8000000 in
/-- The first bias as a row. -/
theorem bias1 :
    StableHlo.after (hostOps0 (F := Ideal)) W (Proc.devRef .tc main_v20)
      = shapeCast S1x128 (W (Proc.devRef .tc main_arg5)) shapeCasts_S128_S1x128 := by
  after_results_simp
  rfl

set_option maxHeartbeats 8000000 in
/-- The stretch before the first region writes no argument. -/
theorem keeps0_main_arg0 : StableHlo.after (hostOps0 (F := Ideal)) W (Proc.devRef .tc main_arg0) = W (Proc.devRef .tc main_arg0) := by
  after_results_simp

set_option maxHeartbeats 8000000 in
/-- The stretch before the first region writes no argument. -/
theorem keeps0_main_arg1 : StableHlo.after (hostOps0 (F := Ideal)) W (Proc.devRef .tc main_arg1) = W (Proc.devRef .tc main_arg1) := by
  after_results_simp

set_option maxHeartbeats 8000000 in
/-- The stretch before the first region writes no argument. -/
theorem keeps0_main_arg2 : StableHlo.after (hostOps0 (F := Ideal)) W (Proc.devRef .tc main_arg2) = W (Proc.devRef .tc main_arg2) := by
  after_results_simp

set_option maxHeartbeats 8000000 in
/-- The stretch before the first region writes no argument. -/
theorem keeps0_main_arg3 : StableHlo.after (hostOps0 (F := Ideal)) W (Proc.devRef .tc main_arg3) = W (Proc.devRef .tc main_arg3) := by
  after_results_simp

set_option maxHeartbeats 8000000 in
/-- The stretch before the first region writes no argument. -/
theorem keeps0_main_arg4 : StableHlo.after (hostOps0 (F := Ideal)) W (Proc.devRef .tc main_arg4) = W (Proc.devRef .tc main_arg4) := by
  after_results_simp

set_option maxHeartbeats 8000000 in
/-- The stretch before the first region writes no argument. -/
theorem keeps0_main_arg5 : StableHlo.after (hostOps0 (F := Ideal)) W (Proc.devRef .tc main_arg5) = W (Proc.devRef .tc main_arg5) := by
  after_results_simp

set_option maxHeartbeats 8000000 in
/-- The stretch before the first region writes no argument. -/
theorem keeps0_main_arg6 : StableHlo.after (hostOps0 (F := Ideal)) W (Proc.devRef .tc main_arg6) = W (Proc.devRef .tc main_arg6) := by
  after_results_simp

set_option maxHeartbeats 8000000 in
/-- The stretch before the first region writes no argument. -/
theorem keeps0_main_arg7 : StableHlo.after (hostOps0 (F := Ideal)) W (Proc.devRef .tc main_arg7) = W (Proc.devRef .tc main_arg7) := by
  after_results_simp

set_option maxHeartbeats 8000000 in
/-- The stretch before the first region writes no argument. -/
theorem keeps0_main_arg8 : StableHlo.after (hostOps0 (F := Ideal)) W (Proc.devRef .tc main_arg8) = W (Proc.devRef .tc main_arg8) := by
  after_results_simp

set_option maxHeartbeats 8000000 in
/-- The stretch before the first region writes no argument. -/
theorem keeps0_main_arg9 : StableHlo.after (hostOps0 (F := Ideal)) W (Proc.devRef .tc main_arg9) = W (Proc.devRef .tc main_arg9) := by
  after_results_simp

set_option maxHeartbeats 8000000 in
/-- The stretch before the first region writes no argument. -/
theorem keeps0_main_arg10 : StableHlo.after (hostOps0 (F := Ideal)) W (Proc.devRef .tc main_arg10) = W (Proc.devRef .tc main_arg10) := by
  after_results_simp

/-! ## Between the first two regions -/

set_option maxHeartbeats 8000000 in
/-- The second neighbour mean: the neighbour sum of the hidden array times the reciprocal-degree column repeated
    along the units. -/
theorem neigh2 :
    StableHlo.after (hostOps1 (F := Ideal)) W (Proc.devRef .tc main_v33)
      = mulf (F := Ideal) (s := S131072x128) (φ := .f32)
          (neighbourSum (W (Proc.devRef .tc main_v21)) (W (Proc.devRef .tc main_arg1)) (W (Proc.devRef .tc main_arg2)))
          (broadcastInDim S131072x128 ![0, 1] bcast_S131072x1_S131072x128_0_1 (W (Proc.devRef .tc main_v8))) := by
  after_results_simp
  rfl

set_option maxHeartbeats 8000000 in
/-- The self-weight column as a row. -/
theorem wself2 :
    StableHlo.after (hostOps1 (F := Ideal)) W (Proc.devRef .tc main_v34)
      = shapeCast S1x128 (W (Proc.devRef .tc main_arg6)) shapeCasts_S128x1_S1x128 := by
  after_results_simp
  rfl

set_option maxHeartbeats 8000000 in
/-- The neighbour-weight column as a row. -/
theorem wneigh2 :
    StableHlo.after (hostOps1 (F := Ideal)) W (Proc.devRef .tc main_v35)
      = shapeCast S1x128 (W (Proc.devRef .tc main_arg7)) shapeCasts_S128x1_S1x128 := by
  after_results_simp
  rfl

set_option maxHeartbeats 8000000 in
/-- The second bias as a [1, 1] array. -/
theorem bias2 :
    StableHlo.after (hostOps1 (F := Ideal)) W (Proc.devRef .tc main_v36)
      = shapeCast S1x1 (W (Proc.devRef .tc main_arg8)) shapeCasts_S1_S1x1 := by
  after_results_simp
  rfl

set_option maxHeartbeats 8000000 in
/-- The stretch between the first two regions does not write this buffer. -/
theorem keeps1_main_v21 : StableHlo.after (hostOps1 (F := Ideal)) W (Proc.devRef .tc main_v21) = W (Proc.devRef .tc main_v21) := by
  after_results_simp

set_option maxHeartbeats 8000000 in
/-- The stretch between the first two regions does not write this buffer. -/
theorem keeps1_main_arg0 : StableHlo.after (hostOps1 (F := Ideal)) W (Proc.devRef .tc main_arg0) = W (Proc.devRef .tc main_arg0) := by
  after_results_simp

set_option maxHeartbeats 8000000 in
/-- The stretch between the first two regions does not write this buffer. -/
theorem keeps1_main_arg9 : StableHlo.after (hostOps1 (F := Ideal)) W (Proc.devRef .tc main_arg9) = W (Proc.devRef .tc main_arg9) := by
  after_results_simp

set_option maxHeartbeats 8000000 in
/-- The stretch between the first two regions does not write this buffer. -/
theorem keeps1_main_arg10 : StableHlo.after (hostOps1 (F := Ideal)) W (Proc.devRef .tc main_arg10) = W (Proc.devRef .tc main_arg10) := by
  after_results_simp

/-! ## Before the last region -/

set_option maxHeartbeats 8000000 in
/-- The first result: the score column reshaped to [64, 2048]. -/
theorem out1 :
    StableHlo.after (hostOps2 (F := Ideal)) W (Proc.devRef .tc main_v38)
      = shapeCast S64x2048 (W (Proc.devRef .tc main_v37)) shapeCasts_S131072x1_S64x2048 := by
  after_results_simp
  rfl

set_option maxHeartbeats 8000000 in
/-- The head's activation: the tanh of the reshaped score column joined with the reshaped feature column. -/
theorem act :
    StableHlo.after (hostOps2 (F := Ideal)) W (Proc.devRef .tc main_v41)
      = Host.tanh (F := Ideal) (s := S64x4096) (φ := .f32) (concatenate (α := Ideal .f32) S64x4096 1
          [⟨S64x2048, shapeCast S64x2048 (W (Proc.devRef .tc main_v37)) shapeCasts_S131072x1_S64x2048⟩,
           ⟨S64x2048, shapeCast S64x2048 (W (Proc.devRef .tc main_arg0)) shapeCasts_S131072x1_S64x2048⟩]
          concatenates_S64x2048_S64x2048_S64x4096_d1) := by
  after_results_simp
  rfl

set_option maxHeartbeats 8000000 in
/-- The last bias as a row. -/
theorem bias3 :
    StableHlo.after (hostOps2 (F := Ideal)) W (Proc.devRef .tc main_v42)
      = shapeCast S1x2048 (W (Proc.devRef .tc main_arg10)) shapeCasts_S2048_S1x2048 := by
  after_results_simp
  rfl

set_option maxHeartbeats 8000000 in
/-- The stretch before the last region does not write the head's weight. -/
theorem keeps2_main_arg9 : StableHlo.after (hostOps2 (F := Ideal)) W (Proc.devRef .tc main_arg9) = W (Proc.devRef .tc main_arg9) := by
  after_results_simp

end Cert.KernelIdeal.HostStretches

end
-- ==== Proof.SageLayers.lean ====
/-
  The three dense maps of the two-layer mean-aggregation network, on the extended reals, as whole-array functions
  of their operands — what each of the three kernels computes and what the reference's host operations compute.

  * first layer, N = 131072 nodes with one feature, H = 128 hidden units: entry (p, q) of the hidden array is
      tanh ((x p · ws q + n p · wn q) + b q)
    for the feature column x, the neighbour-mean column n, the two weight rows ws, wn and the bias row b. With one
    input feature the two matrix products are outer products, so each is a single product.
  * second layer: entry p of the output column is
      ((Σ_k h (p, k) · ws k) + (Σ_k n (p, k) · wn k)) + b
    for the hidden array h, its neighbour means n (both N × 128), weight rows ws, wn and the one bias entry b.
  * fusion head, 64 graphs of 2048 nodes, 4096 fused features: entry (g, j) is (Σ_k a (g, k) · W (k, j)) + b j.

  Sums are over a finite index in the additive commutative monoid of the extended reals: their order and grouping
  do not matter, and no operand has to be finite.
-/
import Idealize.ShloMosaic.PureOps.Ideal
import Idealize.ShloMosaic.Lib.ValueIdx

noncomputable section

open scoped BigOperators

namespace SageLayers

open Idealize.ShloMosaic Idealize.ShloMosaic.ValueIdx

/-- First layer at node p, hidden unit q. -/
def hiddenAt (x n : FVec Ideal ⟨2, ![131072, 1]⟩ .f32) (ws wn b : FVec Ideal ⟨2, ![1, 128]⟩ .f32)
    (p : Fin 131072) (q : Fin 128) : EReal :=
  Ideal.tanh ((x (ix2 p (0 : Fin 1)) * ws (ix2 (0 : Fin 1) q) + n (ix2 p (0 : Fin 1)) * wn (ix2 (0 : Fin 1) q))
    + b (ix2 (0 : Fin 1) q))

/-- The hidden array: the first layer at every (node, unit). -/
def hidden (x n : FVec Ideal ⟨2, ![131072, 1]⟩ .f32) (ws wn b : FVec Ideal ⟨2, ![1, 128]⟩ .f32) :
    FVec Ideal ⟨2, ![131072, 128]⟩ .f32 :=
  fun i => hiddenAt x n ws wn b ⟨(i 0).val, (i 0).isLt⟩ ⟨(i 1).val, (i 1).isLt⟩

theorem hidden_apply (x n : FVec Ideal ⟨2, ![131072, 1]⟩ .f32) (ws wn b : FVec Ideal ⟨2, ![1, 128]⟩ .f32)
    (p : Fin 131072) (q : Fin 128) : hidden x n ws wn b (ix2 p q) = hiddenAt x n ws wn b p q := rfl

/-- Second layer at node p. -/
def scoreAt (h n : FVec Ideal ⟨2, ![131072, 128]⟩ .f32) (ws wn : FVec Ideal ⟨2, ![1, 128]⟩ .f32)
    (b : FVec Ideal ⟨2, ![1, 1]⟩ .f32) (p : Fin 131072) : EReal :=
  ((∑ k : Fin 128, h (ix2 p k) * ws (ix2 (0 : Fin 1) k)) + (∑ k : Fin 128, n (ix2 p k) * wn (ix2 (0 : Fin 1) k)))
    + b (ix2 (0 : Fin 1) (0 : Fin 1))

/-- The score column: the second layer at every node. -/
def score (h n : FVec Ideal ⟨2, ![131072, 128]⟩ .f32) (ws wn : FVec Ideal ⟨2, ![1, 128]⟩ .f32)
    (b : FVec Ideal ⟨2, ![1, 1]⟩ .f32) : FVec Ideal ⟨2, ![131072, 1]⟩ .f32 :=
  fun i => scoreAt h n ws wn b ⟨(i 0).val, (i 0).isLt⟩

theorem score_apply (h n : FVec Ideal ⟨2, ![131072, 128]⟩ .f32) (ws wn : FVec Ideal ⟨2, ![1, 128]⟩ .f32)
    (b : FVec Ideal ⟨2, ![1, 1]⟩ .f32) (p : Fin 131072) (z : Fin 1) :
    score h n ws wn b (ix2 p z) = scoreAt h n ws wn b p := rfl

/-- Fusion head at graph g, output j. -/
def fusedAt (a : FVec Ideal ⟨2, ![64, 4096]⟩ .f32) (W : FVec Ideal ⟨2, ![4096, 2048]⟩ .f32)
    (b : FVec Ideal ⟨2, ![1, 2048]⟩ .f32) (g : Fin 64) (j : Fin 2048) : EReal :=
  (∑ k : Fin 4096, a (ix2 g k) * W (ix2 k j)) + b (ix2 (0 : Fin 1) j)

/-- The fused output: the head at every (graph, output). -/
def fused (a : FVec Ideal ⟨2, ![64, 4096]⟩ .f32) (W : FVec Ideal ⟨2, ![4096, 2048]⟩ .f32)
    (b : FVec Ideal ⟨2, ![1, 2048]⟩ .f32) : FVec Ideal ⟨2, ![64, 2048]⟩ .f32 :=
  fun i => fusedAt a W b ⟨(i 0).val, (i 0).isLt⟩ ⟨(i 1).val, (i 1).isLt⟩

theorem fused_apply (a : FVec Ideal ⟨2, ![64, 4096]⟩ .f32) (W : FVec Ideal ⟨2, ![4096, 2048]⟩ .f32)
    (b : FVec Ideal ⟨2, ![1, 2048]⟩ .f32) (g : Fin 64) (j : Fin 2048) :
    fused a W b (ix2 g j) = fusedAt a W b g j := rfl

end SageLayers

end
-- ==== Proof.LibRowOps.lean ====
/-
  A vector used as a row, read at an index.

  A vector of length b cast into the [1, b] row reads, at (z, q), the vector at q: (z, q) with z = 0 and q have the
  same row-major position. A [1, b] row broadcast to [a, b] reads, at (p, q), the row at q.
-/
import Idealize.ShloMosaic.Lib.ValueIdx
import Idealize.ShloMosaic.Lib.Pipeline.Value

noncomputable section

namespace LibRowOps

open Idealize.ShloMosaic Idealize.ShloMosaic.ValueIdx

/-- A vector of length b cast into the [1, b] row, read at (z, q): the vector at q. -/
theorem shapeCast_row_apply {α : Type} {b : ℕ} (x : (⟨1, ![b]⟩ : Shape).Idx → α)
    (h : (⟨1, ![b]⟩ : Shape).ShapeCasts ⟨2, ![1, b]⟩) (z : Fin 1) (q : Fin b) :
    shapeCast ⟨2, ![1, b]⟩ x h (ix2 z q) = x (ix1 q) := by
  refine shapeCast_apply x h _ _ ?_
  rw [Shape.rowMajor_val_one, Shape.rowMajor_val_two]
  show q.val = z.val * b + q.val
  have := z.isLt
  have hz : z.val = 0 := by omega
  rw [hz, Nat.zero_mul, Nat.zero_add]

/-- A [1, b] row broadcast to [a, b] reads, at (p, q), the row at q. -/
theorem broadcastTo_row_apply {α : Type} {a b : ℕ} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ =>
    show 0 = if (1 : ℕ) = 1 then 0 else p.val
    rw [if_pos rfl]
  | ⟨1, _⟩ =>
    show q.val = if b = 1 then 0 else q.val
    split
    · have := q.isLt; omega
    · rfl

end LibRowOps

end
-- ==== Proof.LibKeepdims.lean ====
/-
  A sum along one axis of a matrix that keeps the reduced axis as a unit axis, read at an index.

  A row sum with the axis kept is printed as a reduction of the [A, B] matrix over axis 1 into a vector of length
  A, followed by a cast of that vector into the [A, 1] column. At exact arithmetic the reduction at row r is the
  sum over k of the entry (r, k); the cast reads the vector at r, because (r, 0) and r have the same row-major
  position. The same for a column sum over axis 0.
-/
import Idealize.ShloMosaic.Lib.ValueIdx
import Idealize.ShloMosaic.Lib.Pipeline.Value
import Idealize.ShloMosaic.PureOps.Ideal.Laws

noncomputable section

namespace LibKeepdims

open Idealize.ShloMosaic Idealize.ShloMosaic.ValueIdx

variable {φ : FTy}

/-- The exact sum over axis 1 of an [A, B] matrix, at row r: the sum over k of the entry (r, k). -/
theorem sum_axis1_apply {A B : ℕ} (src : FVec Ideal ⟨2, ![A, B]⟩ φ) (acc : BitVec φ.bits)
    (h : Shape.Reduces ⟨2, ![A, B]⟩ [1] ⟨1, ![A]⟩) (hφ : FKind.Formats φ) (hacc : acc = FKind.add.neutral φ hφ) (r : Fin A) :
    multiReduction .add [1] ⟨1, ![A]⟩ src acc h hφ hacc (ix1 r) = ∑ k : Fin B, src (ix2 r k) := by
  refine (Ideal.multiReduction_add_single src acc h hφ hacc (ix1 r)).trans ?_
  show ∑ k : Fin B, src (h.lift (ix1 r) k) = _
  refine Finset.sum_congr rfl fun k _ => congrArg src ?_
  funext d
  match d with
  | ⟨0, _⟩ => exact Fin.ext rfl
  | ⟨1, _⟩ => exact Fin.ext rfl

/-- The exact sum over axis 0 of an [A, B] matrix, at column c: the sum over k of the entry (k, c). -/
theorem sum_axis0_apply {A B : ℕ} (src : FVec Ideal ⟨2, ![A, B]⟩ φ) (acc : BitVec φ.bits)
    (h : Shape.Reduces ⟨2, ![A, B]⟩ [0] ⟨1, ![B]⟩) (hφ : FKind.Formats φ) (hacc : acc = FKind.add.neutral φ hφ) (c : Fin B) :
    multiReduction .add [0] ⟨1, ![B]⟩ src acc h hφ hacc (ix1 c) = ∑ k : Fin A, src (ix2 k c) := by
  refine (Ideal.multiReduction_add_single src acc h hφ hacc (ix1 c)).trans ?_
  show ∑ k : Fin A, src (h.lift (ix1 c) k) = _
  refine Finset.sum_congr rfl fun k _ => congrArg src ?_
  funext d
  match d with
  | ⟨0, _⟩ => exact Fin.ext rfl
  | ⟨1, _⟩ => exact Fin.ext rfl

/-- A vector of length a cast into the [a, 1] column, read at (r, 0): the vector at r. -/
theorem shapeCast_col_apply {α : Type} {a : ℕ} (x : (⟨1, ![a]⟩ : Shape).Idx → α)
    (h : (⟨1, ![a]⟩ : Shape).ShapeCasts ⟨2, ![a, 1]⟩) (r : Fin a) (z : Fin 1) :
    shapeCast ⟨2, ![a, 1]⟩ x h (ix2 r z) = x (ix1 r) := by
  refine shapeCast_apply x h _ _ ?_
  rw [Shape.rowMajor_val_one, Shape.rowMajor_val_two]
  show r.val = r.val * 1 + z.val
  omega

end LibKeepdims

end
-- ==== Proof.LibColumnOps.lean ====
/-
  A column broadcast along the rows' entries, and reductions along a row kept as a column, read at an index,
  at exact arithmetic.

  A matrix [a, 1] broadcast to [a, b] reads, at (p, q), the column's entry p. The maximum over axis 1 of an [A, B]
  matrix at row r is the fold of max over the row's entries from the initial word's value. A sum over axis 1 that is
  kept as an [A, 1] column and broadcast back to C columns reads, at (p, q), the sum of row p — the shape a
  normalisation (a softmax's denominator, a row norm) prints as.
-/
import Idealize.ShloMosaic.Lib.ValueIdx
import Idealize.ShloMosaic.Lib.Pipeline.Value
import Idealize.ShloMosaic.PureOps.Ideal.Laws
import proofs.«100859_j77670188581040_1_alg».proof.Proof.LibKeepdims

noncomputable section

namespace LibColumnOps

open Idealize.ShloMosaic Idealize.ShloMosaic.ValueIdx

/-- An [a, 1] column broadcast to [a, b] reads, at (p, q), the column at p. -/
theorem broadcastTo_col_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The maximum over axis 1 of an [A, B] matrix, at row r: the fold of max over the row, from the initial word's value. -/
theorem max_axis1_apply {A B : ℕ} {φ : FTy} (src : FVec Ideal ⟨2, ![A, B]⟩ φ) (acc : BitVec φ.bits)
    (h : Shape.Reduces ⟨2, ![A, B]⟩ [1] ⟨1, ![A]⟩) (hφ : FKind.Formats φ) (hacc : acc = FKind.maximumf.neutral φ hφ) (r : Fin A) :
    multiReduction .maximumf [1] ⟨1, ![A]⟩ src acc h hφ hacc (ix1 r)
      = (Finset.univ : Finset (Fin B)).fold max (Ideal.ofBits φ acc) (fun k => src (ix2 r k)) := by
  refine (Ideal.multiReduction_maximumf_single src acc h hφ hacc (ix1 r)).trans ?_
  refine congrArg (fun g => Finset.fold max (Ideal.ofBits φ acc) g (Finset.univ : Finset (Fin B))) (funext fun k => congrArg src ?_)
  funext d
  match d with
  | ⟨0, _⟩ => exact Fin.ext rfl
  | ⟨1, _⟩ => exact Fin.ext rfl

/-- The sum over the columns, kept as a unit column and broadcast to C columns, at (p, q): the sum of row p. -/
theorem rowsum_bcast_apply {A B C : ℕ} (y : FVec Ideal ⟨2, ![A, B]⟩ .f32)
    (hred : Shape.Reduces ⟨2, ![A, B]⟩ [1] ⟨1, ![A]⟩) (hcast : (⟨1, ![A]⟩ : Shape).ShapeCasts ⟨2, ![A, 1]⟩)
    (hb : (⟨2, ![A, 1]⟩ : Shape).Broadcasts ⟨2, ![A, C]⟩) (hφ : FKind.Formats .f32)
    (hacc : (0x00000000#32 : BitVec 32) = FKind.add.neutral .f32 hφ) (p : Fin A) (q : Fin C) :
    broadcastTo ⟨2, ![A, C]⟩ (shapeCast ⟨2, ![A, 1]⟩ (multiReduction .add [1] ⟨1, ![A]⟩ y 0x00000000#32 hred hφ hacc) hcast) hb (ix2 p q)
      = ∑ l, y (ix2 p l) := by
  rw [broadcastTo_col_apply, LibKeepdims.shapeCast_col_apply, LibKeepdims.sum_axis1_apply]

end LibColumnOps

end
-- ==== Proof.HiddenRegion.lean ====
/-
  The first region: the hidden array.

  The region runs over 16 grid points; point t stages rows 8192·t … 8192·t + 8191 of the feature column and of the
  neighbour-mean column, the three [1, 128] rows whole, and writes back rows 8192·t … 8192·t + 8191 of the hidden
  array. Entry (r, q) of what point t writes is tanh ((x r · ws q + n r · wn q) + b q) of the staged entries, which is
  entry (8192·t + r, q) of the first layer of the whole arrays as the region finds them. The 16 row blocks tile the
  131072 rows, so after the region the array holds the first layer of those arrays.
-/
import proofs.«100859_j77670188581040_1_alg».proof.Proof.Gen.KernelIdeal.Frame
import proofs.«100859_j77670188581040_1_alg».proof.Proof.SageLayers
import proofs.«100859_j77670188581040_1_alg».proof.Proof.LibRowOps
import proofs.«100859_j77670188581040_1_alg».proof.Proof.LibColumnOps
import Idealize.ShloMosaic.Lib.Pipeline.Value
import Idealize.ShloMosaic.Lib.ValueIdx
import Idealize.ShloMosaic.PureOps.Ideal.Laws

set_option maxRecDepth 16384

noncomputable section

namespace Cert.KernelIdeal.HiddenRegion

open Idealize.ShloMosaic Idealize.ShloMosaic.TcCoe Idealize.ShloMosaic.ValueIdx Idealize.SL.Sem
open Idealize.ShloMosaic.Pipeline (Dat Cfg Window)
open Cert.KernelIdeal Cert.KernelIdeal.Gen

theorem zero_offsets : (![0, 0] : Fin 2 → Nat) = fun _ => 0 := funext fun a => by fin_cases a <;> rfl

/-- What a point stores, at row r and unit q of its block: the first layer of the staged entries. -/
theorem stored_apply (x0 x1 : Vec Ideal S8192x1 .f32) (x3 x4 x5 : Vec Ideal S1x128 .f32) (r : Fin 8192) (q : Fin 128) :
    k0_pay1 x0 x1 x3 x4 x5 (ix2 r q)
      = Ideal.tanh ((x0 (ix2 r (0 : Fin 1)) * x3 (ix2 (0 : Fin 1) q) + x1 (ix2 r (0 : Fin 1)) * x4 (ix2 (0 : Fin 1) q))
          + x5 (ix2 (0 : Fin 1) q)) := by
  unfold k0_pay1
  simp only [shapeCast_self]
  show Ideal.tanh ((broadcastTo S8192x128 x0 broadcasts_S8192x1_S8192x128 (ix2 r q) * broadcastTo S8192x128 x3 broadcasts_S1x128_S8192x128 (ix2 r q)
      + broadcastTo S8192x128 x1 broadcasts_S8192x1_S8192x128 (ix2 r q) * broadcastTo S8192x128 x4 broadcasts_S1x128_S8192x128 (ix2 r q))
      + broadcastTo S8192x128 x5 broadcasts_S1x128_S8192x128 (ix2 r q)) = _
  rw [LibColumnOps.broadcastTo_col_apply, LibColumnOps.broadcastTo_col_apply, LibRowOps.broadcastTo_row_apply,
    LibRowOps.broadcastTo_row_apply, LibRowOps.broadcastTo_row_apply]

variable (V : (c : Dev nD) → (b : Ref sig .tc) → Buf (Elt Ideal) ((c : Thread nD τ).loc b))

/-- The printed index maps, decided over the grid: the two columns move with the output's row block, the three rows
    stay at block 0, and the output's row block is below 16. -/
theorem idx_facts : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) ≤ 15 ∧ win0_5.index t (1 : Fin 2) = 0 :=
  (by decide +kernel : ∀ t : Fin grid0.N, _)

/-- Every row block of the output is some point's. -/
theorem idx_onto : ∀ q0 : Fin 16, ∃ t : Fin cfg0.N, win0_5.index t = ![q0.val, 0] :=
  (by decide +kernel : ∀ q0 : Fin 16, ∃ t : Fin grid0.N, win0_5.index t = ![q0.val, 0])

/-- The node a point's block row r is: 8192 · (the point's row block) + r. -/
def node (t : Fin cfg0.N) (r : Fin 8192) : Fin 131072 :=
  ⟨win0_5.index t (0 : Fin 2) * 8192 + r.val, by have h := (idx_facts t).2.2.2.2.2.2.2.2.2.2.1; have := r.isLt; omega⟩

/-- Row r, unit q of the output's block at point t is entry (node t r, q) of the array. -/
theorem emb_out (t : Fin cfg0.N) (r : Fin 8192) (q : Fin 128) :
    ((cfg0.win 5).blk t).view.emb (ix2 r q) = ix2 (node t r) q := by
  obtain ⟨-, -, -, -, -, -, -, -, -, -, -, e51⟩ := idx_facts t
  funext a; apply Fin.ext
  match a with
  | ⟨0, _⟩ => show win0_5.index t (0 : Fin 2) * 8192 + 1 * r.val = win0_5.index t (0 : Fin 2) * 8192 + r.val; omega
  | ⟨1, _⟩ => show win0_5.index t (1 : Fin 2) * 128 + 1 * q.val = q.val; omega

/-- Row r of the feature column's block at point t is the column at node t r. -/
theorem read_x (c : Dev nD) (t : Fin cfg0.N) (r : Fin 8192) :
    iblk0 V c 0 t (ix2 r (0 : Fin 1)) = V c main_arg0 (ix2 (node t r) (0 : Fin 1)) := by
  obtain ⟨e00, e01, -⟩ := idx_facts t
  show V c main_arg0 (((cfg0.win 0).blk t).view.emb (ix2 r (0 : Fin 1))) = V c main_arg0 (ix2 (node t r) (0 : Fin 1))
  refine congrArg (V c main_arg0) ?_
  funext a; apply Fin.ext
  match a with
  | ⟨0, _⟩ => show win0_0.index t (0 : Fin 2) * 8192 + 1 * r.val = win0_5.index t (0 : Fin 2) * 8192 + r.val; omega
  | ⟨1, _⟩ => show win0_0.index t (1 : Fin 2) * 1 + 1 * 0 = 0; omega

/-- Row r of the neighbour-mean column's block at point t is the column at node t r. -/
theorem read_n (c : Dev nD) (t : Fin cfg0.N) (r : Fin 8192) :
    iblk0 V c 1 t (ix2 r (0 : Fin 1)) = V c main_v19 (ix2 (node t r) (0 : Fin 1)) := by
  obtain ⟨-, -, e10, e11, -⟩ := idx_facts t
  show V c main_v19 (((cfg0.win 1).blk t).view.emb (ix2 r (0 : Fin 1))) = V c main_v19 (ix2 (node t r) (0 : Fin 1))
  refine congrArg (V c main_v19) ?_
  funext a; apply Fin.ext
  match a with
  | ⟨0, _⟩ => show win0_1.index t (0 : Fin 2) * 8192 + 1 * r.val = win0_5.index t (0 : Fin 2) * 8192 + r.val; omega
  | ⟨1, _⟩ => show win0_1.index t (1 : Fin 2) * 1 + 1 * 0 = 0; omega

/-- The self-weight row is staged whole. -/
theorem read_ws (c : Dev nD) (t : Fin cfg0.N) (q : Fin 128) :
    iblk0 V c 2 t (ix2 (0 : Fin 1) q) = V c main_arg3 (ix2 (0 : Fin 1) q) := by
  obtain ⟨-, -, -, -, e20, e21, -⟩ := idx_facts t
  show V c main_arg3 (((cfg0.win 2).blk t).view.emb (ix2 (0 : Fin 1) q)) = V c main_arg3 (ix2 (0 : Fin 1) q)
  refine congrArg (V c main_arg3) ?_
  funext a; apply Fin.ext
  match a with
  | ⟨0, _⟩ => show win0_2.index t (0 : Fin 2) * 1 + 1 * 0 = 0; omega
  | ⟨1, _⟩ => show win0_2.index t (1 : Fin 2) * 128 + 1 * q.val = q.val; omega

/-- The neighbour-weight row is staged whole. -/
theorem read_wn (c : Dev nD) (t : Fin cfg0.N) (q : Fin 128) :
    iblk0 V c 3 t (ix2 (0 : Fin 1) q) = V c main_arg4 (ix2 (0 : Fin 1) q) := by
  obtain ⟨-, -, -, -, -, -, e30, e31, -⟩ := idx_facts t
  show V c main_arg4 (((cfg0.win 3).blk t).view.emb (ix2 (0 : Fin 1) q)) = V c main_arg4 (ix2 (0 : Fin 1) q)
  refine congrArg (V c main_arg4) ?_
  funext a; apply Fin.ext
  match a with
  | ⟨0, _⟩ => show win0_3.index t (0 : Fin 2) * 1 + 1 * 0 = 0; omega
  | ⟨1, _⟩ => show win0_3.index t (1 : Fin 2) * 128 + 1 * q.val = q.val; omega

/-- The bias row is staged whole. -/
theorem read_b (c : Dev nD) (t : Fin cfg0.N) (q : Fin 128) :
    iblk0 V c 4 t (ix2 (0 : Fin 1) q) = V c main_v20 (ix2 (0 : Fin 1) q) := by
  obtain ⟨-, -, -, -, -, -, -, -, e40, e41, -⟩ := idx_facts t
  show V c main_v20 (((cfg0.win 4).blk t).view.emb (ix2 (0 : Fin 1) q)) = V c main_v20 (ix2 (0 : Fin 1) q)
  refine congrArg (V c main_v20) ?_
  funext a; apply Fin.ext
  match a with
  | ⟨0, _⟩ => show win0_4.index t (0 : Fin 2) * 1 + 1 * 0 = 0; omega
  | ⟨1, _⟩ => show win0_4.index t (1 : Fin 2) * 128 + 1 * q.val = q.val; omega

/-- What point t writes back is its row block of the first layer of the arrays as the region finds them. -/
theorem flushed_eq (c : Dev nD) (t : Fin cfg0.N) :
    (dat0 V c).flushed 5 t = ((cfg0.win 5).blk t).view.read (Elt Ideal)
      (SageLayers.hidden (V c main_arg0) (V c main_v19) (V c main_arg3) (V c main_arg4) (V c main_v20)) := by
  show (cfg0.win 5).cut (grid0.coords t) ((dat0 V c).after 5 t) = _
  rw [after0_5]
  unfold out0_5
  rw [View.canon_unit_zero zero_offsets]
  simp only [View.ld_unit_zero (S := S8192x1) zero_offsets, View.ld_unit_zero (S := S1x128) zero_offsets]
  funext j
  obtain ⟨r, q, rfl⟩ : ∃ (r : Fin 8192) (q : Fin 128), j = ix2 r q := ⟨j 0, j 1, eq_ix2 j⟩
  show k0_pay1 (iblk0 V c 0 t) (iblk0 V c 1 t) (iblk0 V c 2 t) (iblk0 V c 3 t) (iblk0 V c 4 t) (ix2 r q)
    = SageLayers.hidden (V c main_arg0) (V c main_v19) (V c main_arg3) (V c main_arg4) (V c main_v20)
        (((cfg0.win 5).blk t).view.emb (ix2 r q))
  rw [emb_out t r q, SageLayers.hidden_apply]
  refine (stored_apply (iblk0 V c 0 t) (iblk0 V c 1 t) (iblk0 V c 2 t) (iblk0 V c 3 t) (iblk0 V c 4 t) r q).trans ?_
  rw [read_x V c t r, read_n V c t r, read_ws V c t q, read_wn V c t q, read_b V c t q]
  rfl

/-- An index of the array is in point t's block iff each coordinate is in the block's range on its axis. -/
theorem mem_blk (t : Fin cfg0.N) (i : S131072x128.Idx) :
    i ∈ ((cfg0.win 5).blk t).view.set ↔ ∀ a : Fin 2, win0_5.index t a * S8192x128.size a ≤ (i a).val ∧ (i a).val < win0_5.index t a * S8192x128.size a + S8192x128.size a := by
  show i ∈ ((View.whole main_v21).slice (win0_5.rect t)).set ↔ _
  rw [View.set_slice_whole, Rect.mem_set_unit]
  exact Iff.rfl

/-- The 16 row blocks tile the array: node p is in the block of the point whose row block is p / 8192. -/
theorem cover (i : S131072x128.Idx) :
    ∃ t : Fin cfg0.N, (cfg0.win 5).flush t = true ∧ i ∈ ((cfg0.win 5).blk t).view.set := by
  have hi0 : (i 0).val < 131072 := (i 0).isLt
  have hi1 : (i 1).val < 128 := (i 1).isLt
  obtain ⟨t, ht⟩ := idx_onto ⟨(i 0).val / 8192, by omega⟩
  have q0 : win0_5.index t (0 : Fin 2) = (i 0).val / 8192 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 8192 ≤ (i 0).val ∧ (i 0).val < win0_5.index t (0 : Fin 2) * 8192 + 8192; omega
  | ⟨1, _⟩ => show win0_5.index t (1 : Fin 2) * 128 ≤ (i 1).val ∧ (i 1).val < win0_5.index t (1 : Fin 2) * 128 + 128; omega

/-- After the region the hidden array holds the first layer of the arrays as the region finds them. -/
theorem array_eq (c : Dev nD) :
    (dat0 V c).arrAt 5 cfg0.N
      = SageLayers.hidden (V c main_arg0) (V c main_v19) (V c main_arg3) (V c main_arg4) (V c main_v20) :=
  (dat0 V c).arrAt_eq_of_cover 5 _ (fun t _ => flushed_eq V c t) cover

end Cert.KernelIdeal.HiddenRegion

end
-- ==== Proof.ScoreRegion.lean ====
/-
  The second region: the score column.

  Point t of 16 stages rows 8192·t … 8192·t + 8191 of the hidden array and of its neighbour means, the two [1, 128]
  weight rows and the [1, 1] bias whole, and writes back rows 8192·t … 8192·t + 8191 of the score column. Row r of
  what it writes is ((Σ_k h (r, k) · ws k) + (Σ_k n (r, k) · wn k)) + b — two lane sums, each kept as a column, added,
  and the bias broadcast down the column — which is entry 8192·t + r of the second layer of the whole arrays as the
  region finds them. The 16 row blocks tile the 131072 rows.
-/
import proofs.«100859_j77670188581040_1_alg».proof.Proof.Gen.KernelIdeal.Frame
import proofs.«100859_j77670188581040_1_alg».proof.Proof.SageLayers
import proofs.«100859_j77670188581040_1_alg».proof.Proof.LibRowOps
import proofs.«100859_j77670188581040_1_alg».proof.Proof.LibKeepdims
import Idealize.ShloMosaic.Lib.Pipeline.Value
import Idealize.ShloMosaic.Lib.ValueIdx
import Idealize.ShloMosaic.PureOps.Ideal.Laws

set_option maxRecDepth 16384

noncomputable section

namespace Cert.KernelIdeal.ScoreRegion

open Idealize.ShloMosaic Idealize.ShloMosaic.TcCoe Idealize.ShloMosaic.ValueIdx Idealize.SL.Sem
open Idealize.ShloMosaic.Pipeline (Dat Cfg Window)
open Cert.KernelIdeal Cert.KernelIdeal.Gen

theorem zero_offsets : (![0, 0] : Fin 2 → Nat) = fun _ => 0 := funext fun a => by fin_cases a <;> rfl

/-- What a point stores at row r of its block: the second layer of the staged entries. -/
theorem stored_apply (x0 x2 : Vec Ideal S8192x128 .f32) (x4 x6 : Vec Ideal S1x128 .f32) (x8 : Vec Ideal S1x1 .f32)
    (r : Fin 8192) (z : Fin 1) :
    k1_pay1 x0 x2 x4 x6 x8 (ix2 r z)
      = ((∑ k : Fin 128, x0 (ix2 r k) * x4 (ix2 (0 : Fin 1) k)) + (∑ k : Fin 128, x2 (ix2 r k) * x6 (ix2 (0 : Fin 1) k)))
          + x8 (ix2 (0 : Fin 1) (0 : Fin 1)) := by
  have hz : z = 0 := Subsingleton.elim _ _
  subst hz
  unfold k1_pay1
  simp only [shapeCast_self]
  show (shapeCast S8192x1 (multiReduction (F := Ideal) .add [1] S8192 (mulf (F := Ideal) x0 (broadcastTo S8192x128 x4 broadcasts_S1x128_S8192x128)) 0x00000000#32 reduces_S8192x128_S8192 (.inl rfl) rfl) shapeCasts_S8192_S8192x1 (ix2 r (0 : Fin 1))
      + shapeCast S8192x1 (multiReduction (F := Ideal) .add [1] S8192 (mulf (F := Ideal) x2 (broadcastTo S8192x128 x6 broadcasts_S1x128_S8192x128)) 0x00000000#32 reduces_S8192x128_S8192 (.inl rfl) rfl) shapeCasts_S8192_S8192x1 (ix2 r (0 : Fin 1)))
      + broadcastTo S8192x1 x8 broadcasts_S1x1_S8192x1 (ix2 r (0 : Fin 1)) = _
  refine congrArg₂ (· + ·) (congrArg₂ (· + ·) ?_ ?_) ?_
  · refine (LibKeepdims.shapeCast_col_apply _ shapeCasts_S8192_S8192x1 r (0 : Fin 1)).trans ?_
    refine (LibKeepdims.sum_axis1_apply (mulf (F := Ideal) x0 (broadcastTo S8192x128 x4 broadcasts_S1x128_S8192x128))
      0x00000000#32 reduces_S8192x128_S8192 (.inl rfl) rfl r).trans ?_
    refine Finset.sum_congr rfl fun k _ => ?_
    show x0 (ix2 r k) * broadcastTo S8192x128 x4 broadcasts_S1x128_S8192x128 (ix2 r k) = _
    rw [LibRowOps.broadcastTo_row_apply]
  · refine (LibKeepdims.shapeCast_col_apply _ shapeCasts_S8192_S8192x1 r (0 : Fin 1)).trans ?_
    refine (LibKeepdims.sum_axis1_apply (mulf (F := Ideal) x2 (broadcastTo S8192x128 x6 broadcasts_S1x128_S8192x128))
      0x00000000#32 reduces_S8192x128_S8192 (.inl rfl) rfl r).trans ?_
    refine Finset.sum_congr rfl fun k _ => ?_
    show x2 (ix2 r k) * broadcastTo S8192x128 x6 broadcasts_S1x128_S8192x128 (ix2 r k) = _
    rw [LibRowOps.broadcastTo_row_apply]
  · exact LibRowOps.broadcastTo_row_apply x8 broadcasts_S1x1_S8192x1 r (0 : Fin 1)

variable (V : (c : Dev nD) → (b : Ref sig .tc) → Buf (Elt Ideal) ((c : Thread nD τ).loc b))

/-- The printed index maps, decided over the grid: the two [N, 128] arrays move with the output's row block, the two
    rows and the bias stay at block 0, and the output's row block is below 16. -/
theorem idx_facts : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) ≤ 15 ∧ win1_5.index t (1 : Fin 2) = 0 :=
  (by decide +kernel : ∀ t : Fin grid1.N, _)

/-- Every row block of the output is some point's. -/
theorem idx_onto : ∀ q0 : Fin 16, ∃ t : Fin cfg1.N, win1_5.index t = ![q0.val, 0] :=
  (by decide +kernel : ∀ q0 : Fin 16, ∃ t : Fin grid1.N, win1_5.index t = ![q0.val, 0])

/-- The node a point's block row r is: 8192 · (the point's row block) + r. -/
def node (t : Fin cfg1.N) (r : Fin 8192) : Fin 131072 :=
  ⟨win1_5.index t (0 : Fin 2) * 8192 + r.val, by have h := (idx_facts t).2.2.2.2.2.2.2.2.2.2.1; have := r.isLt; omega⟩

/-- Row r of the output's block at point t is entry node t r of the column. -/
theorem emb_out (t : Fin cfg1.N) (r : Fin 8192) (z : Fin 1) :
    ((cfg1.win 5).blk t).view.emb (ix2 r z) = ix2 (node t r) z := by
  obtain ⟨-, -, -, -, -, -, -, -, -, -, -, e51⟩ := idx_facts t
  funext a; apply Fin.ext
  match a with
  | ⟨0, _⟩ => show win1_5.index t (0 : Fin 2) * 8192 + 1 * r.val = win1_5.index t (0 : Fin 2) * 8192 + r.val; omega
  | ⟨1, _⟩ => show win1_5.index t (1 : Fin 2) * 1 + 1 * z.val = z.val; omega

/-- Row r of the hidden array's block at point t is the array's row node t r. -/
theorem read_h (c : Dev nD) (t : Fin cfg1.N) (r : Fin 8192) (k : Fin 128) :
    iblk1 V c 0 t (ix2 r k) = V c main_v21 (ix2 (node t r) k) := by
  obtain ⟨e00, e01, -⟩ := idx_facts t
  show V c main_v21 (((cfg1.win 0).blk t).view.emb (ix2 r k)) = V c main_v21 (ix2 (node t r) k)
  refine congrArg (V c main_v21) ?_
  funext a; apply Fin.ext
  match a with
  | ⟨0, _⟩ => show win1_0.index t (0 : Fin 2) * 8192 + 1 * r.val = win1_5.index t (0 : Fin 2) * 8192 + r.val; omega
  | ⟨1, _⟩ => show win1_0.index t (1 : Fin 2) * 128 + 1 * k.val = k.val; omega

/-- Row r of the neighbour means' block at point t is the array's row node t r. -/
theorem read_n (c : Dev nD) (t : Fin cfg1.N) (r : Fin 8192) (k : Fin 128) :
    iblk1 V c 1 t (ix2 r k) = V c main_v33 (ix2 (node t r) k) := by
  obtain ⟨-, -, e10, e11, -⟩ := idx_facts t
  show V c main_v33 (((cfg1.win 1).blk t).view.emb (ix2 r k)) = V c main_v33 (ix2 (node t r) k)
  refine congrArg (V c main_v33) ?_
  funext a; apply Fin.ext
  match a with
  | ⟨0, _⟩ => show win1_1.index t (0 : Fin 2) * 8192 + 1 * r.val = win1_5.index t (0 : Fin 2) * 8192 + r.val; omega
  | ⟨1, _⟩ => show win1_1.index t (1 : Fin 2) * 128 + 1 * k.val = k.val; omega

/-- The self-weight row is staged whole. -/
theorem read_ws (c : Dev nD) (t : Fin cfg1.N) (k : Fin 128) :
    iblk1 V c 2 t (ix2 (0 : Fin 1) k) = V c main_v34 (ix2 (0 : Fin 1) k) := by
  obtain ⟨-, -, -, -, e20, e21, -⟩ := idx_facts t
  show V c main_v34 (((cfg1.win 2).blk t).view.emb (ix2 (0 : Fin 1) k)) = V c main_v34 (ix2 (0 : Fin 1) k)
  refine congrArg (V c main_v34) ?_
  funext a; apply Fin.ext
  match a with
  | ⟨0, _⟩ => show win1_2.index t (0 : Fin 2) * 1 + 1 * 0 = 0; omega
  | ⟨1, _⟩ => show win1_2.index t (1 : Fin 2) * 128 + 1 * k.val = k.val; omega

/-- The neighbour-weight row is staged whole. -/
theorem read_wn (c : Dev nD) (t : Fin cfg1.N) (k : Fin 128) :
    iblk1 V c 3 t (ix2 (0 : Fin 1) k) = V c main_v35 (ix2 (0 : Fin 1) k) := by
  obtain ⟨-, -, -, -, -, -, e30, e31, -⟩ := idx_facts t
  show V c main_v35 (((cfg1.win 3).blk t).view.emb (ix2 (0 : Fin 1) k)) = V c main_v35 (ix2 (0 : Fin 1) k)
  refine congrArg (V c main_v35) ?_
  funext a; apply Fin.ext
  match a with
  | ⟨0, _⟩ => show win1_3.index t (0 : Fin 2) * 1 + 1 * 0 = 0; omega
  | ⟨1, _⟩ => show win1_3.index t (1 : Fin 2) * 128 + 1 * k.val = k.val; omega

/-- The bias entry is staged whole. -/
theorem read_b (c : Dev nD) (t : Fin cfg1.N)  :
    iblk1 V c 4 t (ix2 (0 : Fin 1) (0 : Fin 1)) = V c main_v36 (ix2 (0 : Fin 1) (0 : Fin 1)) := by
  obtain ⟨-, -, -, -, -, -, -, -, e40, e41, -⟩ := idx_facts t
  show V c main_v36 (((cfg1.win 4).blk t).view.emb (ix2 (0 : Fin 1) (0 : Fin 1))) = V c main_v36 (ix2 (0 : Fin 1) (0 : Fin 1))
  refine congrArg (V c main_v36) ?_
  funext a; apply Fin.ext
  match a with
  | ⟨0, _⟩ => show win1_4.index t (0 : Fin 2) * 1 + 1 * 0 = 0; omega
  | ⟨1, _⟩ => show win1_4.index t (1 : Fin 2) * 1 + 1 * 0 = 0; omega

/-- What point t writes back is its row block of the second layer of the arrays as the region finds them. -/
theorem flushed_eq (c : Dev nD) (t : Fin cfg1.N) :
    (dat1 V c).flushed 5 t = ((cfg1.win 5).blk t).view.read (Elt Ideal)
      (SageLayers.score (V c main_v21) (V c main_v33) (V c main_v34) (V c main_v35) (V c main_v36)) := by
  show (cfg1.win 5).cut (grid1.coords t) ((dat1 V c).after 5 t) = _
  rw [after1_5]
  unfold out1_5
  rw [View.canon_unit_zero zero_offsets]
  simp only [View.ld_unit_zero (S := S8192x128) zero_offsets, View.ld_unit_zero (S := S1x128) zero_offsets,
    View.ld_unit_zero (S := S1x1) zero_offsets]
  funext j
  obtain ⟨r, z, rfl⟩ : ∃ (r : Fin 8192) (z : Fin 1), j = ix2 r z := ⟨j 0, j 1, eq_ix2 j⟩
  show k1_pay1 (iblk1 V c 0 t) (iblk1 V c 1 t) (iblk1 V c 2 t) (iblk1 V c 3 t) (iblk1 V c 4 t) (ix2 r z)
    = SageLayers.score (V c main_v21) (V c main_v33) (V c main_v34) (V c main_v35) (V c main_v36)
        (((cfg1.win 5).blk t).view.emb (ix2 r z))
  rw [emb_out t r z, SageLayers.score_apply]
  refine (stored_apply (iblk1 V c 0 t) (iblk1 V c 1 t) (iblk1 V c 2 t) (iblk1 V c 3 t) (iblk1 V c 4 t) r z).trans ?_
  rw [read_b V c t]
  unfold SageLayers.scoreAt
  refine congrArg₂ (· + ·) (congrArg₂ (· + ·) ?_ ?_) rfl
  · refine Finset.sum_congr rfl fun k _ => ?_
    rw [read_h V c t r k, read_ws V c t k]
  · refine Finset.sum_congr rfl fun k _ => ?_
    rw [read_n V c t r k, read_wn V c t k]

/-- An index of the column is in point t's block iff each coordinate is in the block's range on its axis. -/
theorem mem_blk (t : Fin cfg1.N) (i : S131072x1.Idx) :
    i ∈ ((cfg1.win 5).blk t).view.set ↔ ∀ a : Fin 2, win1_5.index t a * S8192x1.size a ≤ (i a).val ∧ (i a).val < win1_5.index t a * S8192x1.size a + S8192x1.size a := by
  show i ∈ ((View.whole main_v37).slice (win1_5.rect t)).set ↔ _
  rw [View.set_slice_whole, Rect.mem_set_unit]
  exact Iff.rfl

/-- The 16 row blocks tile the column: node p is in the block of the point whose row block is p / 8192. -/
theorem cover (i : S131072x1.Idx) :
    ∃ t : Fin cfg1.N, (cfg1.win 5).flush t = true ∧ i ∈ ((cfg1.win 5).blk t).view.set := by
  have hi0 : (i 0).val < 131072 := (i 0).isLt
  have hi1 : (i 1).val < 1 := (i 1).isLt
  obtain ⟨t, ht⟩ := idx_onto ⟨(i 0).val / 8192, by omega⟩
  have q0 : win1_5.index t (0 : Fin 2) = (i 0).val / 8192 := congrFun ht 0
  have q1 : win1_5.index t (1 : Fin 2) = 0 := congrFun ht 1
  refine ⟨t, flush1_5 t, ?_⟩
  rw [mem_blk]
  intro a
  match a with
  | ⟨0, _⟩ => show win1_5.index t (0 : Fin 2) * 8192 ≤ (i 0).val ∧ (i 0).val < win1_5.index t (0 : Fin 2) * 8192 + 8192; omega
  | ⟨1, _⟩ => show win1_5.index t (1 : Fin 2) * 1 ≤ (i 1).val ∧ (i 1).val < win1_5.index t (1 : Fin 2) * 1 + 1; omega

/-- After the region the score column holds the second layer of the arrays as the region finds them. -/
theorem array_eq (c : Dev nD) :
    (dat1 V c).arrAt 5 cfg1.N
      = SageLayers.score (V c main_v21) (V c main_v33) (V c main_v34) (V c main_v35) (V c main_v36) :=
  (dat1 V c).arrAt_eq_of_cover 5 _ (fun t _ => flushed_eq V c t) cover

end Cert.KernelIdeal.ScoreRegion

end
-- ==== Proof.LibMatmulIdx.lean ====
/-
  A TensorCore product of two matrices into a zero accumulator at exact arithmetic, read at an entry: the sum over
  the contracted axis of the products of the left factor's row entries with the right factor's column entries.
  Stated, as the host product's lemma is, for any contraction record between two-axis shapes whose operand indices
  are "row of the result, contracted position" and "contracted position, column of the result".
-/
import Idealize.ShloMosaic.Lib.ValueIdx
import Idealize.ShloMosaic.PureOps.Ideal.Laws

noncomputable section

namespace LibMatmulIdx

open Idealize.ShloMosaic Idealize.ShloMosaic.ValueIdx

/-- `tpu.matmul` of an M×K by a K×N matrix into the zero splat, at entry `j`: Σ_k l[j₀,k] · r[k,j₁]. -/
theorem matmul2_apply {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (prec : Option ContractPrecision) (l : FVec Ideal ⟨2, ![M, K]⟩ φ₁) (r : FVec Ideal ⟨2, ![K, N]⟩ φ₂)
    (j : (⟨2, ![M, N]⟩ : Shape).Idx) :
    FloatOps.matmul (F := Ideal) D prec l r (constant ⟨2, ![M, N]⟩ .f32 0x00000000#32) j
      = ∑ k : Fin K, l (ix2 (n0 := M) (n1 := K) (j 0) k) * r (ix2 (n0 := K) (n1 := N) k (j 1)) := by
  rw [Ideal.matmul_constant_zero_apply, ← Equiv.sum_comp (contrEquiv1 D K hr hs).symm]
  refine Finset.sum_congr rfl fun k _ => ?_
  have hk := contrEquiv1_symm_val D K hr hs k
  have e1 : D.lhsIdx j ((contrEquiv1 D K hr hs).symm k) = ix2 (n0 := M) (n1 := K) (j 0) k := funext fun a => Fin.ext (by
    match a with
    | ⟨0, _⟩ => exact hl0 _ _
    | ⟨1, _⟩ => exact (hl1 _ _).trans hk)
  have e2 : D.rhsIdx j ((contrEquiv1 D K hr hs).symm k) = ix2 (n0 := K) (n1 := N) k (j 1) := funext fun a => Fin.ext (by
    match a with
    | ⟨0, _⟩ => exact (hr0 _ _).trans hk
    | ⟨1, _⟩ => exact hr1 _ _)
  rw [e1, e2]

end LibMatmulIdx

end
-- ==== Proof.FusedRegion.lean ====
/-
  The third region: the fused output.

  Point t of 4 stages the whole [64, 4096] activation, columns 512·t … 512·t + 511 of the [4096, 2048] weight and of
  the [1, 2048] bias row, and writes back columns 512·t … 512·t + 511 of the [64, 2048] output. Entry (g, j) of what it
  writes is (Σ_k a (g, k) · W (k, j)) + b j of the staged entries — a matrix product into a zero accumulator (the
  operands' narrowing to a 16-bit format is the identity at exact arithmetic) plus the bias row broadcast over the
  graphs — which is entry (g, 512·t + j) of the head of the whole arrays as the region finds them. The 4 column blocks
  tile the 2048 columns.
-/
import proofs.«100859_j77670188581040_1_alg».proof.Proof.Gen.KernelIdeal.Frame
import proofs.«100859_j77670188581040_1_alg».proof.Proof.SageLayers
import proofs.«100859_j77670188581040_1_alg».proof.Proof.LibRowOps
import proofs.«100859_j77670188581040_1_alg».proof.Proof.LibMatmulIdx
import Idealize.ShloMosaic.Lib.Pipeline.Value
import Idealize.ShloMosaic.Lib.ValueIdx
import Idealize.ShloMosaic.PureOps.Ideal.Laws

set_option maxRecDepth 16384

noncomputable section

namespace Cert.KernelIdeal.FusedRegion

open Idealize.ShloMosaic Idealize.ShloMosaic.TcCoe Idealize.ShloMosaic.ValueIdx Idealize.SL.Sem
open Idealize.ShloMosaic.Pipeline (Dat Cfg Window)
open Cert.KernelIdeal Cert.KernelIdeal.Gen

theorem zero_offsets : (![0, 0] : Fin 2 → Nat) = fun _ => 0 := funext fun a => by fin_cases a <;> rfl

local notation "DOT" => dot_S64x4096_S4096x512_S64x512_1_0_0_1_n_n

theorem lhs0 (j : S64x512.Idx) (k : (DOT).contr.Idx) : ((DOT).lhsIdx j k 0).val = (j 0).val := by
  unfold DotDims.lhsIdx
  rw [dif_neg (show ¬(0 : Fin S64x4096.rank) ∈ (DOT).lhsBatch by decide), dif_pos (show (0 : Fin S64x4096.rank) ∈ (DOT).lhsNonContracting by decide)]
  rfl
theorem lhs1 (j : S64x512.Idx) (k : (DOT).contr.Idx) : ((DOT).lhsIdx j k 1).val = (k ⟨0, by decide⟩).val :=
  (DOT).lhsIdx_val_of_single rfl j k
theorem rhs0 (j : S64x512.Idx) (k : (DOT).contr.Idx) : ((DOT).rhsIdx j k 0).val = (k ⟨0, by decide⟩).val :=
  (DOT).rhsIdx_val_of_single rfl j k
theorem rhs1 (j : S64x512.Idx) (k : (DOT).contr.Idx) : ((DOT).rhsIdx j k 1).val = (j 1).val := by
  unfold DotDims.rhsIdx
  rw [dif_neg (show ¬(1 : Fin S4096x512.rank) ∈ (DOT).rhsBatch by decide), dif_pos (show (1 : Fin S4096x512.rank) ∈ (DOT).rhsNonContracting by decide)]
  rfl

/-- What a point stores at graph g, column j of its block: the head of the staged entries. -/
theorem stored_apply (x0 : Vec Ideal S64x4096 .f32) (x3 : Vec Ideal S4096x512 .f32) (x6 : Vec Ideal S1x512 .f32)
    (g : Fin 64) (j : Fin 512) :
    k2_pay1 x0 x3 x6 (ix2 g j)
      = (∑ k : Fin 4096, x0 (ix2 g k) * x3 (ix2 k j)) + x6 (ix2 (0 : Fin 1) j) := by
  unfold k2_pay1
  simp only [shapeCast_self]
  show FloatOps.matmul (F := Ideal) DOT none (truncf .bf16 x0 bitsLt_bf16_f32) (truncf .bf16 x3 bitsLt_bf16_f32) (constant S64x512 .f32 0x00000000#32) (ix2 g j)
      + broadcastTo S64x512 x6 broadcasts_S1x512_S64x512 (ix2 g j) = _
  rw [LibMatmulIdx.matmul2_apply DOT rfl rfl lhs0 lhs1 rhs0 rhs1, LibRowOps.broadcastTo_row_apply]
  rfl

variable (V : (c : Dev nD) → (b : Ref sig .tc) → Buf (Elt Ideal) ((c : Thread nD τ).loc b))

/-- The printed index maps, decided over the grid: the activation stays at block (0, 0), the weight and the bias row
    move with the output's column block, which is below 4. -/
theorem idx_facts : ∀ t : Fin cfg2.N,
    win2_0.index t (0 : Fin 2) = 0 ∧ win2_0.index t (1 : Fin 2) = 0
    ∧ win2_1.index t (0 : Fin 2) = 0 ∧ win2_1.index t (1 : Fin 2) = win2_3.index t (1 : Fin 2)
    ∧ win2_2.index t (0 : Fin 2) = 0 ∧ win2_2.index t (1 : Fin 2) = win2_3.index t (1 : Fin 2)
    ∧ win2_3.index t (0 : Fin 2) = 0 ∧ win2_3.index t (1 : Fin 2) ≤ 3 :=
  (by decide +kernel : ∀ t : Fin grid2.N, _)

/-- Every column block of the output is some point's. -/
theorem idx_onto : ∀ q1 : Fin 4, ∃ t : Fin cfg2.N, win2_3.index t = ![0, q1.val] :=
  (by decide +kernel : ∀ q1 : Fin 4, ∃ t : Fin grid2.N, win2_3.index t = ![0, q1.val])

/-- The column a point's block column j is: 512 · (the point's column block) + j. -/
def col (t : Fin cfg2.N) (j : Fin 512) : Fin 2048 :=
  ⟨win2_3.index t (1 : Fin 2) * 512 + j.val, by have h := (idx_facts t).2.2.2.2.2.2.2; have := j.isLt; omega⟩

/-- Graph g, column j of the output's block at point t is entry (g, col t j) of the array. -/
theorem emb_out (t : Fin cfg2.N) (g : Fin 64) (j : Fin 512) :
    ((cfg2.win 3).blk t).view.emb (ix2 g j) = ix2 g (col t j) := by
  obtain ⟨-, -, -, -, -, -, e30, -⟩ := idx_facts t
  funext a; apply Fin.ext
  match a with
  | ⟨0, _⟩ => show win2_3.index t (0 : Fin 2) * 64 + 1 * g.val = g.val; omega
  | ⟨1, _⟩ => show win2_3.index t (1 : Fin 2) * 512 + 1 * j.val = win2_3.index t (1 : Fin 2) * 512 + j.val; omega

/-- The activation is staged whole. -/
theorem read_a (c : Dev nD) (t : Fin cfg2.N) (g : Fin 64) (k : Fin 4096) :
    iblk2 V c 0 t (ix2 g k) = V c main_v41 (ix2 g k) := by
  obtain ⟨e00, e01, -⟩ := idx_facts t
  show V c main_v41 (((cfg2.win 0).blk t).view.emb (ix2 g k)) = V c main_v41 (ix2 g k)
  refine congrArg (V c main_v41) ?_
  funext a; apply Fin.ext
  match a with
  | ⟨0, _⟩ => show win2_0.index t (0 : Fin 2) * 64 + 1 * g.val = g.val; omega
  | ⟨1, _⟩ => show win2_0.index t (1 : Fin 2) * 4096 + 1 * k.val = k.val; omega

/-- Column j of the weight's block at point t is the weight's column col t j. -/
theorem read_w (c : Dev nD) (t : Fin cfg2.N) (k : Fin 4096) (j : Fin 512) :
    iblk2 V c 1 t (ix2 k j) = V c main_arg9 (ix2 k (col t j)) := by
  obtain ⟨-, -, e10, e11, -⟩ := idx_facts t
  show V c main_arg9 (((cfg2.win 1).blk t).view.emb (ix2 k j)) = V c main_arg9 (ix2 k (col t j))
  refine congrArg (V c main_arg9) ?_
  funext a; apply Fin.ext
  match a with
  | ⟨0, _⟩ => show win2_1.index t (0 : Fin 2) * 4096 + 1 * k.val = k.val; omega
  | ⟨1, _⟩ => show win2_1.index t (1 : Fin 2) * 512 + 1 * j.val = win2_3.index t (1 : Fin 2) * 512 + j.val; omega

/-- Column j of the bias row's block at point t is the row at col t j. -/
theorem read_b (c : Dev nD) (t : Fin cfg2.N) (j : Fin 512) :
    iblk2 V c 2 t (ix2 (0 : Fin 1) j) = V c main_v42 (ix2 (0 : Fin 1) (col t j)) := by
  obtain ⟨-, -, -, -, e20, e21, -⟩ := idx_facts t
  show V c main_v42 (((cfg2.win 2).blk t).view.emb (ix2 (0 : Fin 1) j)) = V c main_v42 (ix2 (0 : Fin 1) (col t j))
  refine congrArg (V c main_v42) ?_
  funext a; apply Fin.ext
  match a with
  | ⟨0, _⟩ => show win2_2.index t (0 : Fin 2) * 1 + 1 * 0 = 0; omega
  | ⟨1, _⟩ => show win2_2.index t (1 : Fin 2) * 512 + 1 * j.val = win2_3.index t (1 : Fin 2) * 512 + j.val; omega

/-- What point t writes back is its column block of the head of the arrays as the region finds them. -/
theorem flushed_eq (c : Dev nD) (t : Fin cfg2.N) :
    (dat2 V c).flushed 3 t = ((cfg2.win 3).blk t).view.read (Elt Ideal)
      (SageLayers.fused (V c main_v41) (V c main_arg9) (V c main_v42)) := by
  show (cfg2.win 3).cut (grid2.coords t) ((dat2 V c).after 3 t) = _
  rw [after2_3]
  unfold out2_3
  rw [View.canon_unit_zero zero_offsets]
  simp only [View.ld_unit_zero (S := S64x4096) zero_offsets, View.ld_unit_zero (S := S4096x512) zero_offsets,
    View.ld_unit_zero (S := S1x512) zero_offsets]
  funext i
  obtain ⟨g, j, rfl⟩ : ∃ (g : Fin 64) (j : Fin 512), i = ix2 g j := ⟨i 0, i 1, eq_ix2 i⟩
  show k2_pay1 (iblk2 V c 0 t) (iblk2 V c 1 t) (iblk2 V c 2 t) (ix2 g j)
    = SageLayers.fused (V c main_v41) (V c main_arg9) (V c main_v42) (((cfg2.win 3).blk t).view.emb (ix2 g j))
  rw [emb_out t g j, SageLayers.fused_apply]
  refine (stored_apply (iblk2 V c 0 t) (iblk2 V c 1 t) (iblk2 V c 2 t) g j).trans ?_
  rw [read_b V c t j]
  unfold SageLayers.fusedAt
  refine congrArg₂ (· + ·) ?_ rfl
  refine Finset.sum_congr rfl fun k _ => ?_
  rw [read_a V c t g k, read_w V c t k j]

/-- An index of the array is in point t's block iff each coordinate is in the block's range on its axis. -/
theorem mem_blk (t : Fin cfg2.N) (i : S64x2048.Idx) :
    i ∈ ((cfg2.win 3).blk t).view.set ↔ ∀ a : Fin 2, win2_3.index t a * S64x512.size a ≤ (i a).val ∧ (i a).val < win2_3.index t a * S64x512.size a + S64x512.size a := by
  show i ∈ ((View.whole main_v43).slice (win2_3.rect t)).set ↔ _
  rw [View.set_slice_whole, Rect.mem_set_unit]
  exact Iff.rfl

/-- The 4 column blocks tile the array: column n is in the block of the point whose column block is n / 512. -/
theorem cover (i : S64x2048.Idx) :
    ∃ t : Fin cfg2.N, (cfg2.win 3).flush t = true ∧ i ∈ ((cfg2.win 3).blk t).view.set := by
  have hi0 : (i 0).val < 64 := (i 0).isLt
  have hi1 : (i 1).val < 2048 := (i 1).isLt
  obtain ⟨t, ht⟩ := idx_onto ⟨(i 1).val / 512, by omega⟩
  have q0 : win2_3.index t (0 : Fin 2) = 0 := congrFun ht 0
  have q1 : win2_3.index t (1 : Fin 2) = (i 1).val / 512 := congrFun ht 1
  refine ⟨t, flush2_3 t, ?_⟩
  rw [mem_blk]
  intro a
  match a with
  | ⟨0, _⟩ => show win2_3.index t (0 : Fin 2) * 64 ≤ (i 0).val ∧ (i 0).val < win2_3.index t (0 : Fin 2) * 64 + 64; omega
  | ⟨1, _⟩ => show win2_3.index t (1 : Fin 2) * 512 ≤ (i 1).val ∧ (i 1).val < win2_3.index t (1 : Fin 2) * 512 + 512; omega

/-- After the region the output array holds the head of the arrays as the region finds them. -/
theorem array_eq (c : Dev nD) :
    (dat2 V c).arrAt 3 cfg2.N = SageLayers.fused (V c main_v41) (V c main_arg9) (V c main_v42) :=
  (dat2 V c).arrAt_eq_of_cover 3 _ (fun t _ => flushed_eq V c t) cover

end Cert.KernelIdeal.FusedRegion

end
-- ==== Proof.LibReciprocalScale.lean ====
/-
  A product with a reciprocal against a quotient, on the extended reals.

  At exact arithmetic a quotient a / d by d ≠ 0 is a · d⁻¹, and 1 / d is d⁻¹, so a · (1 / d) = a / d for EVERY extended
  real a, the infinities included: no finiteness is needed, only d ≠ 0. A maximum with the value of the f32 word
  0x3F800000 (the real 1) is at least 1, hence never 0: a degree clamped below at 1 can always be divided by.
-/
import Idealize.ShloMosaic.PureOps.Ideal.Laws

noncomputable section

namespace LibReciprocalScale

open Idealize.ShloMosaic

/-- The f32 word 0x3F800000 denotes the real 1. -/
theorem ofBits_one_f32 : Ideal.ofBits .f32 0x3F800000#32 = 1 := by
  simp [Ideal.ofBits, Ideal.ieee, -EReal.coe_mul]; norm_num

/-- A maximum with the word 0x3F800000's value is not 0. -/
theorem max_one_ne_zero (x : EReal) : max x (Ideal.ofBits .f32 0x3F800000#32) ≠ 0 := by
  rw [ofBits_one_f32]
  exact ne_of_gt (lt_of_lt_of_le zero_lt_one (le_max_right x 1))

/-- Off zero, the product with the reciprocal is the quotient, on every extended real. -/
theorem mul_one_div (a d : EReal) (hd : d ≠ 0) : a * Ideal.div 1 d = Ideal.div a d := by
  unfold Ideal.div
  rw [if_neg hd, if_neg hd, one_mul]

end LibReciprocalScale

end
-- ==== Proof.RefLayers.lean ====
/-
  The reference program's dense layers and neighbour means, read entry by entry, on the extended reals.

  * first layer: entry (p, q) of the reference's hidden array is
      tanh ((Σ_{k<1} x (p, k) · ws (k, q) + Σ_{k<1} n (p, k) · wn (k, q)) + b q),
    where n is the reference's first neighbour mean. A sum over a one-element index is its one term, and the bias
    vector, used as a [1, 128] row and repeated down the nodes, reads b at q; so the array is the specification's
    hidden map of x, n, the two weight rows and the bias row.
  * second layer: entry p of the reference's score column is
      ((Σ_k h (p, k) · ws (k, 0)) + (Σ_k m (p, k) · wn (k, 0))) + b 0
    for the hidden array h and its neighbour mean m. A [128, 1] column reshaped to a [1, 128] row reads the column's
    entry (k, 0) at (0, k), since both sit at row-major position k; the one bias entry reshaped to [1, 1] is itself.
    So the column is the specification's score map of h, m, the reshaped weight rows and the reshaped bias.
  * fusion head: entry (g, j) of the reference's last array is (Σ_{k<4096} a (g, k) · W (k, j)) + b j, the
    specification's fused map of a, W and the bias vector as a [1, 2048] row.
  * neighbour means: with d p = max (deg p) 1 the clamped degree of node p, the sum s over a node's neighbours times
    the reciprocal 1 / d p is the quotient s / d p. This holds for every extended real s, since d p ≥ 1 is not 0. On
    the product side the reciprocal vector is reshaped [N] → [N, 1] (and, for the hidden array, repeated along the
    128 units); on the quotient side the clamped degree is repeated the same way before dividing; at (p, q) both
    read the degree at p. The second layer recomputes the clamped degree by the same scatter-add of the same
    constants, so it is the same vector.
-/
import proofs.«100859_j77670188581040_1_alg».proof.Proof.Gen.ReferenceIdeal.Read
import proofs.«100859_j77670188581040_1_alg».proof.Proof.SageLayers
import proofs.«100859_j77670188581040_1_alg».proof.Proof.LibReciprocalScale
import proofs.«100859_j77670188581040_1_alg».proof.Proof.LibRowOps

noncomputable section

open scoped BigOperators

namespace Cert.ReferenceIdeal.Layers

open Cert.ReferenceIdeal Cert.ReferenceIdeal.Read Idealize.ShloMosaic Idealize.ShloMosaic.ValueIdx

/-- A [b, 1] column cast into the [1, b] row, read at (z, k): the column at (k, z'). Both have row-major position k. -/
theorem shapeCast_col_row_apply {α : Type} {b : ℕ} (x : (⟨2, ![b, 1]⟩ : Shape).Idx → α)
    (h : (⟨2, ![b, 1]⟩ : Shape).ShapeCasts ⟨2, ![1, b]⟩) (z z' : Fin 1) (k : Fin b) :
    shapeCast ⟨2, ![1, b]⟩ x h (ix2 z k) = x (ix2 k z') := by
  refine shapeCast_apply x h _ _ ?_
  rw [Shape.rowMajor_val_two, Shape.rowMajor_val_two]
  show k.val * 1 + z'.val = z.val * b + k.val
  have := z.isLt
  have := z'.isLt
  have hz : z.val = 0 := by omega
  have hz' : z'.val = 0 := by omega
  rw [hz, hz', Nat.zero_mul, Nat.zero_add, Nat.mul_one, Nat.add_zero]

/-- A vector of length n cast into the [n, 1] column, read at (p, z): the vector at p. Both have row-major position p. -/
theorem shapeCast_vec_col_apply {α : Type} {n : ℕ} (x : (⟨1, ![n]⟩ : Shape).Idx → α)
    (h : (⟨1, ![n]⟩ : Shape).ShapeCasts ⟨2, ![n, 1]⟩) (p : Fin n) (z : Fin 1) :
    shapeCast ⟨2, ![n, 1]⟩ x h (ix2 p z) = x (ix1 p) := by
  refine shapeCast_apply x h _ _ ?_
  rw [Shape.rowMajor_val_one, Shape.rowMajor_val_two]
  show p.val = p.val * 1 + z.val
  have := z.isLt
  omega

/-- The host's quotient of two arrays at an index is the quotient of the elements. -/
theorem host_divf_apply {s : Shape} {φ : FTy} (a b : FVec Ideal s φ) (i : s.Idx) :
    Host.divf a b i = Ideal.div (a i) (b i) := rfl

/-- The second layer's clamped degree is the first layer's: the same scatter-add of the same constants, clamped below
    by the same constant. -/
theorem degree_recomputed (a2 : (⟨S2097152, .i32⟩ : BufTy).Contents (Elt Ideal)) :
    val_main_v40 (F := Ideal) a2 = val_main_v15 (F := Ideal) a2 := by
  unfold val_main_v40 val_main_v15 val_main_v38 val_main_v13 val_main_v39 val_main_v14 val_main_v36 val_main_v11
    val_main_v37 val_main_v12 val_main_v35 val_main_v10 val_main_cst_9 val_main_cst_3 val_main_cst_8 val_main_cst_2
    val_main_cst_7 val_main_cst_1
  rfl

/-- The reciprocal of the clamped degree at node p, times a, is a over the clamped degree at p. -/
theorem mul_recip_degree (a2 : (⟨S2097152, .i32⟩ : BufTy).Contents (Elt Ideal)) (p : Fin 131072) (a : EReal) :
    a * Host.divf (F := Ideal) (s := S131072) (φ := .f32) (val_main_v14 (F := Ideal)) (val_main_v15 (F := Ideal) a2) (ix1 p)
      = Ideal.div a (val_main_v15 (F := Ideal) a2 (ix1 p)) := by
  rw [host_divf_apply, val_main_v15_apply, val_main_v14_apply, val_main_cst_3_apply]
  generalize val_main_v13 (F := Ideal) a2 (ix1 p) = x
  rw [Ideal.ofBits_def, Ideal.maximumf_def]
  have hd := LibReciprocalScale.max_one_ne_zero x
  generalize max x (Ideal.ofBits .f32 0x3F800000#32) = d at hd ⊢
  rw [LibReciprocalScale.ofBits_one_f32]
  exact LibReciprocalScale.mul_one_div a d hd

/-- First layer: entry (p, q) of the reference's hidden array is the tanh of the two one-term products plus the bias
    at q. -/
theorem hidden_eq (a0 : (⟨S131072x1, .f32⟩ : BufTy).Contents (Elt Ideal))
    (a1 a2 : (⟨S2097152, .i32⟩ : BufTy).Contents (Elt Ideal))
    (a3 a4 : (⟨S1x128, .f32⟩ : BufTy).Contents (Elt Ideal))
    (a5 : (⟨S128, .f32⟩ : BufTy).Contents (Elt Ideal)) (h5 : S128.ShapeCasts S1x128) :
    val_main_v24 (F := Ideal) a0 a1 a2 a3 a4 a5
      = SageLayers.hidden a0 (val_main_v17 (F := Ideal) a0 a1 a2) a3 a4 (shapeCast S1x128 a5 h5) := by
  funext i
  obtain ⟨p, q, rfl⟩ : ∃ (p : Fin 131072) (q : Fin 128), i = ix2 p q := ⟨i 0, i 1, eq_ix2 i⟩
  rw [SageLayers.hidden_apply]
  unfold SageLayers.hiddenAt
  rw [val_main_v24_apply, val_main_v23_apply, val_main_v20_apply, val_main_v18_apply, val_main_v19_apply,
    val_main_v22_apply, val_main_v21_apply]
  generalize val_main_v17 (F := Ideal) a0 a1 a2 = n
  -- a sum over the one-element index is its one term
  rw [Fin.sum_univ_one, Fin.sum_univ_one]
  -- the composed indices, by coordinates
  have el : lidx_main_v18 (ix2 p q) (0 : Fin 1) = ix2 p (0 : Fin 1) :=
    funext fun a => Fin.ext (by match a with | ⟨0, _⟩ => rfl | ⟨1, _⟩ => rfl)
  have er : ridx_main_v18 (ix2 p q) (0 : Fin 1) = ix2 (0 : Fin 1) q :=
    funext fun a => Fin.ext (by match a with | ⟨0, _⟩ => rfl | ⟨1, _⟩ => rfl)
  have el' : lidx_main_v19 (ix2 p q) (0 : Fin 1) = ix2 p (0 : Fin 1) :=
    funext fun a => Fin.ext (by match a with | ⟨0, _⟩ => rfl | ⟨1, _⟩ => rfl)
  have er' : ridx_main_v19 (ix2 p q) (0 : Fin 1) = ix2 (0 : Fin 1) q :=
    funext fun a => Fin.ext (by match a with | ⟨0, _⟩ => rfl | ⟨1, _⟩ => rfl)
  have eb : idx_main_v21 (idx_main_v22 (ix2 p q)) = ix1 q :=
    funext fun a => Fin.ext (by match a with | ⟨0, _⟩ => rfl)
  rw [el, er, el', er', eb, LibRowOps.shapeCast_row_apply a5 h5 (0 : Fin 1) q]
  rfl

/-- Second layer: entry p of the reference's score column is the two 128-term products of the hidden array and of
    its neighbour mean with the weight columns, plus the bias entry. -/
theorem score_eq (a0 : (⟨S131072x1, .f32⟩ : BufTy).Contents (Elt Ideal))
    (a1 a2 : (⟨S2097152, .i32⟩ : BufTy).Contents (Elt Ideal))
    (a3 a4 : (⟨S1x128, .f32⟩ : BufTy).Contents (Elt Ideal))
    (a5 : (⟨S128, .f32⟩ : BufTy).Contents (Elt Ideal))
    (a6 a7 : (⟨S128x1, .f32⟩ : BufTy).Contents (Elt Ideal))
    (a8 : (⟨S1, .f32⟩ : BufTy).Contents (Elt Ideal))
    (h6 h7 : S128x1.ShapeCasts S1x128) (h8 : S1.ShapeCasts S1x1) :
    val_main_v49 (F := Ideal) a0 a1 a2 a3 a4 a5 a6 a7 a8
      = SageLayers.score (val_main_v24 (F := Ideal) a0 a1 a2 a3 a4 a5) (val_main_v43 (F := Ideal) a0 a1 a2 a3 a4 a5)
          (shapeCast S1x128 a6 h6) (shapeCast S1x128 a7 h7) (shapeCast S1x1 a8 h8) := by
  funext i
  obtain ⟨p, z, rfl⟩ : ∃ (p : Fin 131072) (z : Fin 1), i = ix2 p z := ⟨i 0, i 1, eq_ix2 i⟩
  rw [SageLayers.score_apply]
  unfold SageLayers.scoreAt
  rw [val_main_v49_apply, val_main_v46_apply, val_main_v44_apply, val_main_v45_apply, val_main_v48_apply,
    val_main_v47_apply]
  generalize val_main_v24 (F := Ideal) a0 a1 a2 a3 a4 a5 = H
  generalize val_main_v43 (F := Ideal) a0 a1 a2 a3 a4 a5 = N
  have el : ∀ k : Fin 128, lidx_main_v44 (ix2 p z) k = ix2 p k := fun k =>
    funext fun a => Fin.ext (by match a with | ⟨0, _⟩ => rfl | ⟨1, _⟩ => rfl)
  have er : ∀ k : Fin 128, ridx_main_v44 (ix2 p z) k = ix2 k z := fun k =>
    funext fun a => Fin.ext (by match a with | ⟨0, _⟩ => rfl | ⟨1, _⟩ => rfl)
  have el' : ∀ k : Fin 128, lidx_main_v45 (ix2 p z) k = ix2 p k := fun k =>
    funext fun a => Fin.ext (by match a with | ⟨0, _⟩ => rfl | ⟨1, _⟩ => rfl)
  have er' : ∀ k : Fin 128, ridx_main_v45 (ix2 p z) k = ix2 k z := fun k =>
    funext fun a => Fin.ext (by match a with | ⟨0, _⟩ => rfl | ⟨1, _⟩ => rfl)
  have eb : idx_main_v47 (idx_main_v48 (ix2 p z)) = ix1 (0 : Fin 1) :=
    funext fun a => Fin.ext (by match a with | ⟨0, _⟩ => rfl)
  have c6 : ∀ k : Fin 128, shapeCast S1x128 a6 h6 (ix2 (0 : Fin 1) k) = a6 (ix2 k z) := fun k =>
    shapeCast_col_row_apply a6 h6 0 z k
  have c7 : ∀ k : Fin 128, shapeCast S1x128 a7 h7 (ix2 (0 : Fin 1) k) = a7 (ix2 k z) := fun k =>
    shapeCast_col_row_apply a7 h7 0 z k
  have c8 : shapeCast S1x1 a8 h8 (ix2 (0 : Fin 1) (0 : Fin 1)) = a8 (ix1 (0 : Fin 1)) :=
    LibRowOps.shapeCast_row_apply a8 h8 0 0
  simp only [el, er, el', er', eb, c6, c7, c8]
  rfl

/-- Fusion head: entry (g, j) of the reference's last array is the 4096-term product plus the bias at j. -/
theorem fused_eq (a0 : (⟨S131072x1, .f32⟩ : BufTy).Contents (Elt Ideal))
    (a1 a2 : (⟨S2097152, .i32⟩ : BufTy).Contents (Elt Ideal))
    (a3 a4 : (⟨S1x128, .f32⟩ : BufTy).Contents (Elt Ideal))
    (a5 : (⟨S128, .f32⟩ : BufTy).Contents (Elt Ideal))
    (a6 a7 : (⟨S128x1, .f32⟩ : BufTy).Contents (Elt Ideal))
    (a8 : (⟨S1, .f32⟩ : BufTy).Contents (Elt Ideal))
    (a9 : (⟨S4096x2048, .f32⟩ : BufTy).Contents (Elt Ideal))
    (a10 : (⟨S2048, .f32⟩ : BufTy).Contents (Elt Ideal))
    (h10 : S2048.ShapeCasts S1x2048) :
    val_main_v57 (F := Ideal) a0 a1 a2 a3 a4 a5 a6 a7 a8 a9 a10
      = SageLayers.fused (val_main_v53 (F := Ideal) a0 a1 a2 a3 a4 a5 a6 a7 a8) a9 (shapeCast S1x2048 a10 h10) := by
  funext i
  obtain ⟨g, j, rfl⟩ : ∃ (g : Fin 64) (j : Fin 2048), i = ix2 g j := ⟨i 0, i 1, eq_ix2 i⟩
  rw [SageLayers.fused_apply]
  unfold SageLayers.fusedAt
  rw [val_main_v57_apply, val_main_v54_apply, val_main_v56_apply, val_main_v55_apply]
  generalize val_main_v53 (F := Ideal) a0 a1 a2 a3 a4 a5 a6 a7 a8 = A
  have el : ∀ k : Fin 4096, lidx_main_v54 (ix2 g j) k = ix2 g k := fun k =>
    funext fun a => Fin.ext (by match a with | ⟨0, _⟩ => rfl | ⟨1, _⟩ => rfl)
  have er : ∀ k : Fin 4096, ridx_main_v54 (ix2 g j) k = ix2 k j := fun k =>
    funext fun a => Fin.ext (by match a with | ⟨0, _⟩ => rfl | ⟨1, _⟩ => rfl)
  have eb : idx_main_v55 (idx_main_v56 (ix2 g j)) = ix1 j :=
    funext fun a => Fin.ext (by match a with | ⟨0, _⟩ => rfl)
  have cb : shapeCast S1x2048 a10 h10 (ix2 (0 : Fin 1) j) = a10 (ix1 j) :=
    LibRowOps.shapeCast_row_apply a10 h10 0 j
  simp only [el, er, eb, cb]
  rfl

/-- First neighbour mean: the neighbour sum times the reshaped reciprocal of the clamped degree is the reference's
    quotient of the neighbour sum by the clamped degree. -/
theorem neigh1_eq (a0 : (⟨S131072x1, .f32⟩ : BufTy).Contents (Elt Ideal))
    (a1 a2 : (⟨S2097152, .i32⟩ : BufTy).Contents (Elt Ideal)) (h : S131072.ShapeCasts S131072x1) :
    mulf (F := Ideal) (s := S131072x1) (φ := .f32) (val_main_v9 (F := Ideal) a0 a1 a2)
        (shapeCast S131072x1
          (Host.divf (F := Ideal) (s := S131072) (φ := .f32) (val_main_v14 (F := Ideal)) (val_main_v15 (F := Ideal) a2)) h)
      = val_main_v17 (F := Ideal) a0 a1 a2 := by
  funext i
  obtain ⟨p, z, rfl⟩ : ∃ (p : Fin 131072) (z : Fin 1), i = ix2 p z := ⟨i 0, i 1, eq_ix2 i⟩
  rw [val_main_v17_apply, val_main_v16_apply, mulf_apply]
  generalize val_main_v9 (F := Ideal) a0 a1 a2 = A
  have e16 : idx_main_v16 (ix2 p z) = ix1 p :=
    funext fun a => Fin.ext (by match a with | ⟨0, _⟩ => rfl)
  rw [e16, shapeCast_vec_col_apply _ h p z, mul_recip_degree, Ideal.hostDivf_def]

/-- Second neighbour mean: the same for the hidden array, the reciprocal column repeated along the 128 units. -/
theorem neigh2_eq (a0 : (⟨S131072x1, .f32⟩ : BufTy).Contents (Elt Ideal))
    (a1 a2 : (⟨S2097152, .i32⟩ : BufTy).Contents (Elt Ideal))
    (a3 a4 : (⟨S1x128, .f32⟩ : BufTy).Contents (Elt Ideal))
    (a5 : (⟨S128, .f32⟩ : BufTy).Contents (Elt Ideal)) (h : S131072.ShapeCasts S131072x1)
    (hb : S131072x1.BroadcastsInDim S131072x128 (![0, 1] : Fin 2 → Fin S131072x128.rank)) :
    mulf (F := Ideal) (s := S131072x128) (φ := .f32) (val_main_v34 (F := Ideal) a0 a1 a2 a3 a4 a5)
        (broadcastInDim S131072x128 ![0, 1] hb
          (shapeCast S131072x1
            (Host.divf (F := Ideal) (s := S131072) (φ := .f32) (val_main_v14 (F := Ideal)) (val_main_v15 (F := Ideal) a2)) h))
      = val_main_v43 (F := Ideal) a0 a1 a2 a3 a4 a5 := by
  funext i
  obtain ⟨p, q, rfl⟩ : ∃ (p : Fin 131072) (q : Fin 128), i = ix2 p q := ⟨i 0, i 1, eq_ix2 i⟩
  rw [val_main_v43_apply, val_main_v42_apply, val_main_v41_apply, degree_recomputed, mulf_apply]
  generalize val_main_v34 (F := Ideal) a0 a1 a2 a3 a4 a5 = A
  have e41 : idx_main_v41 (idx_main_v42 (ix2 p q)) = ix1 p :=
    funext fun a => Fin.ext (by match a with | ⟨0, _⟩ => rfl)
  -- the broadcast along the units reads the column at (p, 0)
  have eb : broadcastInDim S131072x128 ![0, 1] hb
      (shapeCast S131072x1
        (Host.divf (F := Ideal) (s := S131072) (φ := .f32) (val_main_v14 (F := Ideal)) (val_main_v15 (F := Ideal) a2)) h)
      (ix2 p q)
      = shapeCast S131072x1
        (Host.divf (F := Ideal) (s := S131072) (φ := .f32) (val_main_v14 (F := Ideal)) (val_main_v15 (F := Ideal) a2)) h
        (ix2 p (0 : Fin 1)) :=
    broadcastInDim_apply _ hb _ (ix2 p q) (ix2 p (0 : Fin 1)) (fun a => match a with
      | ⟨0, _⟩ => by show p.val = if (131072 : Nat) = 1 then 0 else p.val; rw [if_neg (by decide)]
      | ⟨1, _⟩ => by show 0 = if (1 : Nat) = 1 then 0 else q.val; rw [if_pos rfl])
  rw [e41, eb, shapeCast_vec_col_apply _ h p (0 : Fin 1), mul_recip_degree, Ideal.hostDivf_def]

end Cert.ReferenceIdeal.Layers

end
-- ==== Proof.ResultValues.lean ====
/-
  The idealized kernel program's two results as functions of the arguments.

  The buffer contents are followed through the six segments of the program. Before the first region the host has
  computed the first neighbour mean n₁ (the neighbour sum times the reciprocal of the clamped degree, which is the
  reference's quotient); the first region leaves the hidden array h = tanh (x·ws + n₁·wn + b) of the arguments. The
  host then forms the second neighbour mean n₂ of h the same way; the second region leaves the score column
  s = (h·ws' + n₂·wn') + b'. The host reshapes s to [64, 2048] — the first result —, joins it with the reshaped
  feature column and takes the tanh; the third region leaves the fused output a·W + b'' — the second result. Each of
  these arrays is the reference's array of the same name, stage by stage.
-/
import proofs.«100859_j77670188581040_1_alg».proof.Proof.Gen.KernelIdeal.Frame
import proofs.«100859_j77670188581040_1_alg».proof.Proof.HostStretches
import proofs.«100859_j77670188581040_1_alg».proof.Proof.HiddenRegion
import proofs.«100859_j77670188581040_1_alg».proof.Proof.ScoreRegion
import proofs.«100859_j77670188581040_1_alg».proof.Proof.FusedRegion
import proofs.«100859_j77670188581040_1_alg».proof.Proof.RefLayers

set_option maxRecDepth 16384

noncomputable section

namespace Cert.KernelIdeal.ResultValues

open Idealize.ShloMosaic Idealize.ShloMosaic.TcCoe Idealize.SL.Sem
open Idealize.ShloMosaic.Pipeline (Dat Cfg Window)
open Cert.KernelIdeal Cert.KernelIdeal.Gen
open Cert.ReferenceIdeal.Read Cert.ReferenceIdeal.Layers
open Cert.KernelIdeal.HostStretches

variable (m : (ℓ : Loc nD τ sig) → Buf (Elt Ideal) ℓ) (ρ : Dev nD → PrngReg) (c : Dev nD)

/-- Argument 0 as launched, on core c. -/
abbrev a0 : (⟨Cert.ReferenceIdeal.S131072x1, .f32⟩ : BufTy).Contents (Elt Ideal) := m ((c : Thread nD τ).loc main_arg0)
/-- Argument 1 as launched, on core c. -/
abbrev a1 : (⟨Cert.ReferenceIdeal.S2097152, .i32⟩ : BufTy).Contents (Elt Ideal) := m ((c : Thread nD τ).loc main_arg1)
/-- Argument 2 as launched, on core c. -/
abbrev a2 : (⟨Cert.ReferenceIdeal.S2097152, .i32⟩ : BufTy).Contents (Elt Ideal) := m ((c : Thread nD τ).loc main_arg2)
/-- Argument 3 as launched, on core c. -/
abbrev a3 : (⟨Cert.ReferenceIdeal.S1x128, .f32⟩ : BufTy).Contents (Elt Ideal) := m ((c : Thread nD τ).loc main_arg3)
/-- Argument 4 as launched, on core c. -/
abbrev a4 : (⟨Cert.ReferenceIdeal.S1x128, .f32⟩ : BufTy).Contents (Elt Ideal) := m ((c : Thread nD τ).loc main_arg4)
/-- Argument 5 as launched, on core c. -/
abbrev a5 : (⟨Cert.ReferenceIdeal.S128, .f32⟩ : BufTy).Contents (Elt Ideal) := m ((c : Thread nD τ).loc main_arg5)
/-- Argument 6 as launched, on core c. -/
abbrev a6 : (⟨Cert.ReferenceIdeal.S128x1, .f32⟩ : BufTy).Contents (Elt Ideal) := m ((c : Thread nD τ).loc main_arg6)
/-- Argument 7 as launched, on core c. -/
abbrev a7 : (⟨Cert.ReferenceIdeal.S128x1, .f32⟩ : BufTy).Contents (Elt Ideal) := m ((c : Thread nD τ).loc main_arg7)
/-- Argument 8 as launched, on core c. -/
abbrev a8 : (⟨Cert.ReferenceIdeal.S1, .f32⟩ : BufTy).Contents (Elt Ideal) := m ((c : Thread nD τ).loc main_arg8)
/-- Argument 9 as launched, on core c. -/
abbrev a9 : (⟨Cert.ReferenceIdeal.S4096x2048, .f32⟩ : BufTy).Contents (Elt Ideal) := m ((c : Thread nD τ).loc main_arg9)
/-- Argument 10 as launched, on core c. -/
abbrev a10 : (⟨Cert.ReferenceIdeal.S2048, .f32⟩ : BufTy).Contents (Elt Ideal) := m ((c : Thread nD τ).loc main_arg10)

/-! ## The first region's operands and the hidden array -/

theorem V1_x : V1 m ρ c main_arg0 = a0 m c := keeps0_main_arg0 (W0 m ρ c)
theorem V1_ws : V1 m ρ c main_arg3 = a3 m c := keeps0_main_arg3 (W0 m ρ c)
theorem V1_wn : V1 m ρ c main_arg4 = a4 m c := keeps0_main_arg4 (W0 m ρ c)
theorem V1_b : V1 m ρ c main_v20 = shapeCast S1x128 (a5 m c) shapeCasts_S128_S1x128 := bias1 (W0 m ρ c)
/-- The first neighbour mean is the reference's. -/
theorem V1_n : V1 m ρ c main_v19 = val_main_v17 (F := Ideal) (a0 m c) (a1 m c) (a2 m c) :=
  (neigh1 (W0 m ρ c)).trans (neigh1_eq (a0 m c) (a1 m c) (a2 m c) shapeCasts_S131072_S131072x1)

/-- After the first region the hidden array is the reference's. -/
theorem W2_hidden : W2 m ρ c (Proc.devRef .tc main_v21) = val_main_v24 (F := Ideal) (a0 m c) (a1 m c) (a2 m c) (a3 m c) (a4 m c) (a5 m c) :=
  calc W2 m ρ c (Proc.devRef .tc main_v21)
    _ = (dat0 (V1 m ρ) c).arrAt 5 cfg0.N := W2_arr m ρ c 5
    _ = SageLayers.hidden (V1 m ρ c main_arg0) (V1 m ρ c main_v19) (V1 m ρ c main_arg3) (V1 m ρ c main_arg4) (V1 m ρ c main_v20) :=
        HiddenRegion.array_eq (V1 m ρ) c
    _ = SageLayers.hidden (a0 m c) (val_main_v17 (F := Ideal) (a0 m c) (a1 m c) (a2 m c)) (a3 m c) (a4 m c) (shapeCast S1x128 (a5 m c) shapeCasts_S128_S1x128) := by
        rw [V1_x, V1_n, V1_ws, V1_wn, V1_b]
    _ = val_main_v24 (F := Ideal) (a0 m c) (a1 m c) (a2 m c) (a3 m c) (a4 m c) (a5 m c) := (hidden_eq (a0 m c) (a1 m c) (a2 m c) (a3 m c) (a4 m c) (a5 m c) shapeCasts_S128_S1x128).symm

/-! ## What the first region leaves elsewhere -/

theorem W2_x : W2 m ρ c (Proc.devRef .tc main_arg0) = a0 m c :=
  ((W2_arr m ρ c 0).trans (((dat0 (V1 m ρ) c).arrAt_in 0 rfl _).trans (A_eq0 (V1 m ρ) c 0))).trans (V1_x m ρ c)
theorem W2_src : W2 m ρ c (Proc.devRef .tc main_arg1) = a1 m c :=
  (W2_of_ne m ρ c main_arg1 (by decide)).trans (keeps0_main_arg1 (W0 m ρ c))
theorem W2_dst : W2 m ρ c (Proc.devRef .tc main_arg2) = a2 m c :=
  (W2_of_ne m ρ c main_arg2 (by decide)).trans (keeps0_main_arg2 (W0 m ρ c))
theorem W2_recip : W2 m ρ c (Proc.devRef .tc main_v8) = shapeCast S131072x1 (recipDegree (a2 m c)) shapeCasts_S131072_S131072x1 :=
  (W2_of_ne m ρ c main_v8 (by decide)).trans (recip (W0 m ρ c))
theorem W2_ws : W2 m ρ c (Proc.devRef .tc main_arg6) = a6 m c :=
  (W2_of_ne m ρ c main_arg6 (by decide)).trans (keeps0_main_arg6 (W0 m ρ c))
theorem W2_wn : W2 m ρ c (Proc.devRef .tc main_arg7) = a7 m c :=
  (W2_of_ne m ρ c main_arg7 (by decide)).trans (keeps0_main_arg7 (W0 m ρ c))
theorem W2_b : W2 m ρ c (Proc.devRef .tc main_arg8) = a8 m c :=
  (W2_of_ne m ρ c main_arg8 (by decide)).trans (keeps0_main_arg8 (W0 m ρ c))
theorem W2_w3 : W2 m ρ c (Proc.devRef .tc main_arg9) = a9 m c :=
  (W2_of_ne m ρ c main_arg9 (by decide)).trans (keeps0_main_arg9 (W0 m ρ c))
theorem W2_b3 : W2 m ρ c (Proc.devRef .tc main_arg10) = a10 m c :=
  (W2_of_ne m ρ c main_arg10 (by decide)).trans (keeps0_main_arg10 (W0 m ρ c))

/-! ## The second region's operands and the score column -/

theorem V3_h : V3 m ρ c main_v21 = val_main_v24 (F := Ideal) (a0 m c) (a1 m c) (a2 m c) (a3 m c) (a4 m c) (a5 m c) :=
  (keeps1_main_v21 (W2 m ρ c)).trans (W2_hidden m ρ c)
theorem V3_ws : V3 m ρ c main_v34 = shapeCast S1x128 (a6 m c) shapeCasts_S128x1_S1x128 :=
  (wself2 (W2 m ρ c)).trans (by rw [W2_ws])
theorem V3_wn : V3 m ρ c main_v35 = shapeCast S1x128 (a7 m c) shapeCasts_S128x1_S1x128 :=
  (wneigh2 (W2 m ρ c)).trans (by rw [W2_wn])
theorem V3_b : V3 m ρ c main_v36 = shapeCast S1x1 (a8 m c) shapeCasts_S1_S1x1 :=
  (bias2 (W2 m ρ c)).trans (by rw [W2_b])
/-- The second neighbour mean is the reference's. -/
theorem V3_n : V3 m ρ c main_v33 = val_main_v43 (F := Ideal) (a0 m c) (a1 m c) (a2 m c) (a3 m c) (a4 m c) (a5 m c) := by
  refine (neigh2 (W2 m ρ c)).trans ?_
  rw [W2_hidden, W2_src, W2_dst, W2_recip]
  exact neigh2_eq (a0 m c) (a1 m c) (a2 m c) (a3 m c) (a4 m c) (a5 m c) shapeCasts_S131072_S131072x1 bcast_S131072x1_S131072x128_0_1

/-- After the second region the score column is the reference's. -/
theorem W4_score : W4 m ρ c (Proc.devRef .tc main_v37) = val_main_v49 (F := Ideal) (a0 m c) (a1 m c) (a2 m c) (a3 m c) (a4 m c) (a5 m c) (a6 m c) (a7 m c) (a8 m c) :=
  calc W4 m ρ c (Proc.devRef .tc main_v37)
    _ = (dat1 (V3 m ρ) c).arrAt 5 cfg1.N := W4_arr m ρ c 5
    _ = SageLayers.score (V3 m ρ c main_v21) (V3 m ρ c main_v33) (V3 m ρ c main_v34) (V3 m ρ c main_v35) (V3 m ρ c main_v36) :=
        ScoreRegion.array_eq (V3 m ρ) c
    _ = SageLayers.score (val_main_v24 (F := Ideal) (a0 m c) (a1 m c) (a2 m c) (a3 m c) (a4 m c) (a5 m c)) (val_main_v43 (F := Ideal) (a0 m c) (a1 m c) (a2 m c) (a3 m c) (a4 m c) (a5 m c))
          (shapeCast S1x128 (a6 m c) shapeCasts_S128x1_S1x128) (shapeCast S1x128 (a7 m c) shapeCasts_S128x1_S1x128)
          (shapeCast S1x1 (a8 m c) shapeCasts_S1_S1x1) := by
        rw [V3_h, V3_n, V3_ws, V3_wn, V3_b]
    _ = val_main_v49 (F := Ideal) (a0 m c) (a1 m c) (a2 m c) (a3 m c) (a4 m c) (a5 m c) (a6 m c) (a7 m c) (a8 m c) :=
        (score_eq (a0 m c) (a1 m c) (a2 m c) (a3 m c) (a4 m c) (a5 m c) (a6 m c) (a7 m c) (a8 m c) shapeCasts_S128x1_S1x128 shapeCasts_S128x1_S1x128 shapeCasts_S1_S1x1).symm

/-! ## What the second region leaves elsewhere -/

theorem W4_x : W4 m ρ c (Proc.devRef .tc main_arg0) = a0 m c :=
  (W4_of_ne m ρ c main_arg0 (by decide)).trans ((keeps1_main_arg0 (W2 m ρ c)).trans (W2_x m ρ c))
theorem W4_w3 : W4 m ρ c (Proc.devRef .tc main_arg9) = a9 m c :=
  (W4_of_ne m ρ c main_arg9 (by decide)).trans ((keeps1_main_arg9 (W2 m ρ c)).trans (W2_w3 m ρ c))
theorem W4_b3 : W4 m ρ c (Proc.devRef .tc main_arg10) = a10 m c :=
  (W4_of_ne m ρ c main_arg10 (by decide)).trans ((keeps1_main_arg10 (W2 m ρ c)).trans (W2_b3 m ρ c))

/-! ## The last region's operands and the two results -/

/-- The head's activation is the reference's. -/
theorem V5_act : V5 m ρ c main_v41 = val_main_v53 (F := Ideal) (a0 m c) (a1 m c) (a2 m c) (a3 m c) (a4 m c) (a5 m c) (a6 m c) (a7 m c) (a8 m c) := by
  refine (act (W4 m ρ c)).trans ?_
  rw [W4_score, W4_x]
  rfl
theorem V5_w : V5 m ρ c main_arg9 = a9 m c := (keeps2_main_arg9 (W4 m ρ c)).trans (W4_w3 m ρ c)
theorem V5_b : V5 m ρ c main_v42 = shapeCast S1x2048 (a10 m c) shapeCasts_S2048_S1x2048 :=
  (bias3 (W4 m ρ c)).trans (by rw [W4_b3])

/-- The first result, the reshaped score column, is the reference's. -/
theorem result1 : W6 m ρ c (Proc.devRef .tc main_v38) = val_main_v50 (F := Ideal) (a0 m c) (a1 m c) (a2 m c) (a3 m c) (a4 m c) (a5 m c) (a6 m c) (a7 m c) (a8 m c) := by
  refine (W6_of_ne m ρ c main_v38 (by decide)).trans ((out1 (W4 m ρ c)).trans ?_)
  rw [W4_score]
  rfl

/-- The second result, the fused output, is the reference's. -/
theorem result2 : W6 m ρ c (Proc.devRef .tc main_v43) = val_main_v57 (F := Ideal) (a0 m c) (a1 m c) (a2 m c) (a3 m c) (a4 m c) (a5 m c) (a6 m c) (a7 m c) (a8 m c) (a9 m c) (a10 m c) :=
  calc W6 m ρ c (Proc.devRef .tc main_v43)
    _ = (dat2 (V5 m ρ) c).arrAt 3 cfg2.N := W6_arr m ρ c 3
    _ = SageLayers.fused (V5 m ρ c main_v41) (V5 m ρ c main_arg9) (V5 m ρ c main_v42) := FusedRegion.array_eq (V5 m ρ) c
    _ = SageLayers.fused (val_main_v53 (F := Ideal) (a0 m c) (a1 m c) (a2 m c) (a3 m c) (a4 m c) (a5 m c) (a6 m c) (a7 m c) (a8 m c)) (a9 m c) (shapeCast S1x2048 (a10 m c) shapeCasts_S2048_S1x2048) := by
        rw [V5_act, V5_w, V5_b]
    _ = val_main_v57 (F := Ideal) (a0 m c) (a1 m c) (a2 m c) (a3 m c) (a4 m c) (a5 m c) (a6 m c) (a7 m c) (a8 m c) (a9 m c) (a10 m c) := (fused_eq (a0 m c) (a1 m c) (a2 m c) (a3 m c) (a4 m c) (a5 m c) (a6 m c) (a7 m c) (a8 m c) (a9 m c) (a10 m c) shapeCasts_S2048_S1x2048).symm

end Cert.KernelIdeal.ResultValues

end
-- ==== Proof.lean ====
/-
  A two-layer mean-aggregation graph network with a dense fusion head, as three pipelined kernels among host
  operations, against its plain reference: the certificate's five claims.

  The three frames. The two kernel programs' frames are the generated frame certificates; the reference has no kernel,
  and its frame is its run with the results dropped.

  The idealization changes nothing in the program's text (no rewrite was applied), so there is nothing to preserve.

  The value claim, at exact arithmetic. Both programs compute, from the node features x, the edge lists and the
  weights: the degree of every node clamped below by 1; the first neighbour mean n₁ of x; the hidden array
  h = tanh (x·ws + n₁·wn + b); the second neighbour mean n₂ of h; the score column s = (h·ws' + n₂·wn') + b', returned
  reshaped to [64, 2048]; and the fused output tanh ([s | x])·W + b''. They differ in four places, none of which
  changes a value on the extended reals: the kernel multiplies the neighbour sum by the reciprocal of the clamped
  degree where the reference divides by it (equal since the clamped degree is not 0, for every extended real
  numerator); the first layer's two products with one contracted index are single products; the second layer's two
  products are lane sums of elementwise products; and the head's product is computed in four column blocks from
  operands narrowed to a 16-bit format, which is the identity at exact arithmetic. The gather and scatter-add of the
  aggregation are the same operations applied to equal operands on both sides. No input needs to be finite.
-/
import proofs.«100859_j77670188581040_1_alg».proof.Defs
import proofs.«100859_j77670188581040_1_alg».proof.Proof.Gen.Kernel
import proofs.«100859_j77670188581040_1_alg».proof.Proof.Gen.Kernel.Frame
import proofs.«100859_j77670188581040_1_alg».proof.Proof.Gen.KernelIdeal
import proofs.«100859_j77670188581040_1_alg».proof.Proof.Gen.KernelIdeal.Frame
import proofs.«100859_j77670188581040_1_alg».proof.Proof.Gen.ReferenceIdeal
import proofs.«100859_j77670188581040_1_alg».proof.Proof.Gen.ReferenceIdeal.Run
import proofs.«100859_j77670188581040_1_alg».proof.Proof.Gen.ReferenceIdeal.Read
import proofs.«100859_j77670188581040_1_alg».proof.Proof.Gen.Pre_finite_inputs
import proofs.«100859_j77670188581040_1_alg».proof.Proof.RefFrame
import proofs.«100859_j77670188581040_1_alg».proof.Proof.KernelRun
import proofs.«100859_j77670188581040_1_alg».proof.Proof.ResultValues
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := Cert.Proof.RefFrame.frame

theorem preserves : Cert.preserves_Kernel_KernelIdeal := trivial

/-- Both runs end with the reference's two stage functions of the arguments in the result buffers: the kernel
    program's by following its buffers through the segments, the reference's by its own run, the arguments agreeing. -/
theorem algebraic : Cert.algebraic_KernelIdeal_ReferenceIdeal := by
  intro m ρ m' ρ' _ hagree
  refine ⟨fun c => Cert.ReferenceIdeal.Read.val_main_v50 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    fun c => Cert.ReferenceIdeal.Read.val_main_v57 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.ResultValues.result1 m ρ c),
        (h c).2.1.trans (Cert.KernelIdeal.ResultValues.result2 m ρ c), (h c).2.2⟩)
      (Cert.KernelIdeal.Results.run m ρ)
  · refine (θ_run Cert.ReferenceIdeal.defs _ _).mono (fun r h c => ⟨(h c).1.trans ?_, (h c).2.1.trans ?_, (h c).2.2⟩)
      (Cert.ReferenceIdeal.Value.run (F := Ideal) m' ρ')
    · obtain ⟨e0, e1, e2, e3, e4, e5, e6, e7, e8, e9, e10⟩ := hagree c
      rw [Cert.ReferenceIdeal.Read.val_main_v50_eq, e0, e1, e2, e3, e4, e5, e6, e7, e8]
    · obtain ⟨e0, e1, e2, e3, e4, e5, e6, e7, e8, e9, e10⟩ := hagree c
      rw [Cert.ReferenceIdeal.Read.val_main_v57_eq, e0, e1, e2, e3, e4, e5, e6, e7, e8, e9, e10]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
